-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩
abbrev S4096 : Shape := ⟨1, ![4096]⟩
abbrev S4096x1 : Shape := ⟨2, ![4096, 1]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : FVec F S4096x256 .f32) (main_v8 : IVec S_ 1) (main_v16 : FVec F S4096x256 .f32) (main_v17 : FVec F S4096x256 .f32) : IVec S_ 1 :=
  let main_cst_4 : FVec F S_ .f32 := constant S_ .f32 0x00000000#32
  let main_v18 : FVec F S4096 .f32 := (fun x v => Host.reduceAdd x v reducesTo_S4096x256_S4096_d1 h_S_) main_v17 main_cst_4
  let main_v19 : FVec F S4096x1 .f32 := broadcastInDim S4096x1 ![0] bcast_S4096_S4096x1_0 main_v18
  let main_v20 : FVec F S4096x1 .f32 := Host.sqrt main_v19
  let main_cst_5 : FVec F S_ .f32 := constant S_ .f32 0x2B8CBCCC#32
  let main_v21 : FVec F S4096x1 .f32 := broadcastInDim S4096x1 ![] bcast_S_S4096x1 main_cst_5
  let main_v22 : FVec F S4096x1 .f32 := maximumf main_v20 main_v21
  let main_v23 : FVec F S4096x256 .f32 := broadcastInDim S4096x256 ![0, 1] bcast_S4096x1_S4096x256_0_1 main_v22
  let main_v24 : FVec F S4096x256 .f32 := Host.divf main_arg1 main_v23
  let main_v25 : FVec F S4096x256 .f32 := mulf main_v16 main_v24
  let main_cst_6 : FVec F S_ .f32 := constant S_ .f32 0x00000000#32
  let main_v26 : FVec F S4096 .f32 := (fun x v => Host.reduceAdd x v reducesTo_S4096x256_S4096_d1 h_S_) main_v25 main_cst_6
  let main_cst_7 : FVec F S_ .f32 := constant S_ .f32 0x00000000#32
  let main_v27 : FVec F S4096 .f32 := broadcastInDim S4096 ![] bcast_S_S4096 main_cst_7
  let main_v28 : IVec S4096 1 := cmpf .une main_v26 main_v27
  let main_c_8 : IVec S_ 1 := constantI S_ 1 1#1
  let main_v29 : IVec S_ 1 := (fun x v => Host.reduce IntOp.andi x v reducesTo_S4096_S_d0 h_S_) main_v28 main_c_8
  let main_v30 : IVec S_ 1 := andi main_v8 main_v29
  main_v30

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := mulf main_arg0 main_arg0
  let main_cst_2 : FVec F S_ .f32 := constant S_ .f32 0x00000000#32
  let main_v10 : FVec F S4096 .f32 := (fun x v => Host.reduceAdd x v reducesTo_S4096x256_S4096_d1 h_S_) main_v9 main_cst_2
  let main_v11 : FVec F S4096x1 .f32 := broadcastInDim S4096x1 ![0] bcast_S4096_S4096x1_0 main_v10
  let main_v12 : FVec F S4096x1 .f32 := Host.sqrt main_v11
  let main_cst_3 : FVec F S_ .f32 := constant S_ .f32 0x2B8CBCCC#32
  let main_v13 : FVec F S4096x1 .f32 := broadcastInDim S4096x1 ![] bcast_S_S4096x1 main_cst_3
  let main_v14 : FVec F S4096x1 .f32 := maximumf main_v12 main_v13
  let main_v15 : FVec F S4096x256 .f32 := broadcastInDim S4096x256 ![0, 1] bcast_S4096x1_S4096x256_0_1 main_v14
  let main_v16 : FVec F S4096x256 .f32 := Host.divf main_arg0 main_v15
  let main_v17 : FVec F S4096x256 .f32 := mulf main_arg1 main_arg1
  fn_part1 (F := F) main_arg1 main_v8 main_v16 main_v17
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩
abbrev S8192 : Shape := ⟨1, ![8192]⟩

abbrev nBuf : Space → Nat
  | .hbm => 42
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .bf16⟩
  | .hbm, ⟨24, _⟩ => ⟨S8192x1, .f32⟩
  | .hbm, ⟨25, _⟩ => ⟨S8192, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  shapeCasts_S1024x1_S1024x1 : S1024x1.ShapeCasts S1024x1
  reduces_S1024x1024_S1024 : S1024x1024.Reduces [1] S1024
  shapeCasts_S1024_S1024x1 : S1024.ShapeCasts S1024x1
  shapeCasts_S8192x1_S8192 : S8192x1.ShapeCasts S8192
  reducesTo_S8192x256_S8192_d1 : S8192x256.ReducesTo [1] S8192
  bcast_S_S8192 : S_.BroadcastsInDim S8192 (![] : Fin 0 → Fin S8192.rank)
  reducesTo_S8192_S_d0 : S8192.ReducesTo [0] S_
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v17) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 104
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S4096x256, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192x8192, .i32⟩
  | .hbm, ⟨81, _⟩ => ⟨S8192x8192, .i32⟩
  | .hbm, ⟨82, _⟩ => ⟨S_, .i32⟩
  | .hbm, ⟨83, _⟩ => ⟨S8192x8192, .i32⟩
  | .hbm, ⟨84, _⟩ => ⟨S8192x8192, .i32⟩
  | .hbm, ⟨85, _⟩ => ⟨S8192x8192, .i1⟩
  | .hbm, ⟨86, _⟩ => ⟨S8192x8192, .f32⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S_, .f32⟩
  | .hbm, ⟨91, _⟩ => ⟨S8192x8192, .f32⟩
  | .hbm, ⟨92, _⟩ => ⟨S8192x8192, .f32⟩
  | .hbm, ⟨93, _⟩ => ⟨S8192x8192, .f32⟩
  | .hbm, ⟨94, _⟩ => ⟨S8192x8192, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S8192, .f32⟩
  | .hbm, ⟨99, _⟩ => ⟨S8192, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_cst_3 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_4 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_c : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_5 : Ref sig .tc := ⟨.hbm, 87, rfl⟩
abbrev main_v34 : Ref sig .tc := ⟨.hbm, 88, rfl⟩
abbrev main_v35 : Ref sig .tc := ⟨.hbm, 89, rfl⟩
abbrev main_cst_6 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_8 : Ref sig .tc := ⟨.hbm, 100, rfl⟩
abbrev main_v44 : Ref sig .tc := ⟨.hbm, 101, rfl⟩
abbrev main_cst_9 : Ref sig .tc := ⟨.hbm, 102, rfl⟩
abbrev main_v45 : Ref sig .tc := ⟨.hbm, 103, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.WBodyDefs.lean ====
/- The row-sum kernel's body, point by point, for any float instance.

   The grid is 8 × 8; point t = 8·i + j works on row block i of the stacked array (1024 rows of 256 entries) against
   row block j of the same array, and adds to the running column of 1024 row sums the sums over that block's 1024
   columns of exp(2 · ⟨row, column-row⟩). At j = 0 the running column is first set to zero. This module names what
   the body reads at a point (the row block, the 1024 rows of the whole array it multiplies against), states what the
   output column holds after each point as a recursion over the points through the body's arithmetic alone, and
   gives the proof data of the pipeline built from them. -/
import proofs.«127673_j48945447305730_2_alg».proof.Proof.Gen.Kernel.Launch
import proofs.«127673_j48945447305730_2_alg».proof.Proof.Gen.Kernel.Skeleton
import proofs.«127673_j48945447305730_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered, and the windows' blocks -/

/-- Core c's buffers when the region is entered: the launch memory after the host operations that normalise the two
    inputs, stack them and round the stack to bf16. -/
abbrev V₀ (c : Dev nD) : Valuation τ sig (Elt F) := StableHlo.after hostOps0 (fun b => m (c, b))

/-- The same, one buffer at a time. -/
abbrev V (c : Dev nD) (b : Ref sig .tc) : Buf (Elt F) ((c : Thread nD τ).loc b) := V₀ m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 1024 rows of the whole stacked array that point t multiplies its row block against: rows 1024·j … 1024·j + 1023
    of window 1's block (which is the whole array), j the point's inner coordinate. -/
def rhsRows (c : Dev nD) (t : Fin cfg0.N) : Vec F S1024x256 .bf16 :=
  View.ld (iblk m c 1 t) (Rect.unit (s := S8192x256) (k0_off1 (grid0.coords t)) S1024x256.size (k0_off1_inb (grid0.coords t)))

/-! ## What the output column holds after each point -/

/-- The running column of row sums after the body at position n: at the first point of a row block (n ≡ 0 mod 8) the
    body's update of the zero column, otherwise its update of what the point before left. -/
def outsAt (c : Dev nD) : (n : ℕ) → n < cfg0.N → Vec F S1024x1 .f32
  | 0, hn => k0_pay2 (rhsRows m c ⟨0, hn⟩) (iblk m c 0 ⟨0, hn⟩) (k0_pay1 (F := F))
  | n + 1, hn =>
    if (n + 1) % 8 = 0 then
      k0_pay2 (rhsRows m c ⟨n + 1, hn⟩) (iblk m c 0 ⟨n + 1, hn⟩) (k0_pay1 (F := F))
    else
      k0_pay2 (rhsRows m c ⟨n + 1, hn⟩) (iblk m c 0 ⟨n + 1, hn⟩) (outsAt c n (Nat.lt_of_succ_lt hn))

/-- At the first point of a row block the column is the update of zero; -/
theorem outsAt_first (c : Dev nD) (t : Fin cfg0.N) (h0 : t.val % 8 = 0) :
    outsAt m c t.val t.isLt = k0_pay2 (rhsRows m c t) (iblk m c 0 t) (k0_pay1 (F := F)) := by
  obtain ⟨n, hn⟩ := t
  cases n with
  | zero => exact rfl
  | succ n => exact (if_pos h0).trans rfl

/-- at any other point, the update of what the point before left. -/
theorem outsAt_next (c : Dev nD) (t : Fin cfg0.N) (h0 : ¬t.val % 8 = 0) :
    outsAt m c t.val t.isLt = k0_pay2 (rhsRows m c t) (iblk m c 0 t) (outsAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the pipeline on core c: the arrays as the region finds them; after the body at point t the two
    input windows' buffers at their blocks and the output's at the running column; the two input windows stage one
    and the same array, so each holds half of it and the output all of its own; nothing owed. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t.val t.isLt := by dsimp only [dats]

end Cert.Kernel.K

end
-- ==== Proof.WBodyRuns.lean ====
/- The row-sum kernel's body run on any three whole staging buffers, in its two control cases.

   At a point whose inner coordinate is 0 the body first overwrites the output column with zeros and then replaces it
   by its update; at any other point it replaces the column it finds by its update. In both cases the two input
   buffers are only read. Each run is stated with the list of pieces the stores leave in the output buffer as its
   witness. -/
import proofs.«127673_j48945447305730_2_alg».proof.Proof.Gen.Kernel.Launch
import proofs.«127673_j48945447305730_2_alg».proof.Proof.Gen.Kernel.Skeleton
import proofs.«127673_j48945447305730_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one branch, from the grid coordinates: the inner coordinate is 0. -/
abbrev cond0 (i : grid0.Coords) : Prop :=
  (Scalar.cmpi .ne (Scalar.extui (Scalar.cmpi .eq (BitVec.ofNat 32 (i 1).val) 0#32)) 0#32) = 1#1

/-- It holds exactly at the first point of each row block — decided over the 64 points. -/
theorem hcond0 : ∀ t : Fin cfg0.N, cond0 (grid0.coords t) ↔ t.val % 8 = 0 :=
  (by decide +kernel : ∀ t : Fin grid0.N, cond0 (grid0.coords t) ↔ t.val % 8 = 0)

/-! ## The run at a first point -/

set_option maxHeartbeats 1000000 in
/-- At a point where the condition holds: from the two input buffers whole at x0 and x1 and the output buffer whole at
    anything, the body runs to the inputs as they were and the output buffer with the pieces written. -/
noncomputable def runFirst (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : cond0 i)
    (x0 : Vec F S1024x256 .bf16) (x1 : Vec F S8192x256 .bf16) :
    { L : List (View.Piece (Elt F) S1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__rowsum_kernel i arg2 harg2 arg3 harg3 arg4 harg4) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The run at a later point -/

set_option maxHeartbeats 1000000 in
/-- At a point where the condition fails: from the two input buffers whole at x0 and x1 and the output buffer whole at
    the running column xo, the body runs to the inputs as they were and the output buffer with the pieces written. -/
noncomputable def runNext (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : ¬cond0 i)
    (x0 : Vec F S1024x256 .bf16) (x1 : Vec F S8192x256 .bf16) (xo : Vec F S1024x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__rowsum_kernel i arg2 harg2 arg3 harg3 arg4 harg4) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What the stores leave, through the body's arithmetic -/

/-- The zero offsets of a whole-buffer access, as a constant function. -/
theorem hz2 : (![0, 0] : Fin 2 → ℕ) = fun _ => 0 := by
  funext a; match a with | ⟨0, _⟩ => rfl | ⟨1, _⟩ => rfl

/-- At a first point the pieces tile the output column (two stores of the whole column), so they cover it. -/
theorem coverFirst (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : cond0 i)
    (x0 : Vec F S1024x256 .bf16) (x1 : Vec F S8192x256 .bf16) (y : S1024x1.Idx) :
    ∃ pc ∈ (runFirst c i arg2 harg2 arg3 harg3 arg4 harg4 hc0 x0 x1).1, y ∈ pc.1.set :=
  View.cover_of_tiledL (runFirst c i arg2 harg2 arg3 harg3 arg4 harg4 hc0 x0 x1).1 S1024x1.size (by sl_kernel_rfl) y

/-- At a later point the one store of the whole column covers it. -/
theorem coverNext (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : ¬cond0 i)
    (x0 : Vec F S1024x256 .bf16) (x1 : Vec F S8192x256 .bf16) (xo : Vec F S1024x1 .f32) (y : S1024x1.Idx) :
    ∃ pc ∈ (runNext c i arg2 harg2 arg3 harg3 arg4 harg4 hc0 x0 x1 xo).1, y ∈ pc.1.set :=
  View.cover_of_tiledL (runNext c i arg2 harg2 arg3 harg3 arg4 harg4 hc0 x0 x1 xo).1 S1024x1.size (by sl_kernel_rfl) y

/-- At a first point the output buffer reads back as the body's update of the zero column: the last store covers the
    column, its payload is the update of what the three loads read — the 1024 rows of the second input at the point's
    offset, all of the first input, and the column just zeroed. -/
theorem readFirst (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : cond0 i)
    (x0 : Vec F S1024x256 .bf16) (x1 : Vec F S8192x256 .bf16) (f : arg4.view.ty.Contents (Elt F)) :
    arg4.view.read (Elt F) (arg4.view.writes (Elt F) f (runFirst c i arg2 harg2 arg3 harg3 arg4 harg4 hc0 x0 x1).1)
      = k0_pay2 (View.ld x1 (Rect.unit (s := S8192x256) (k0_off1 i) S1024x256.size (k0_off1_inb i))) x0 (k0_pay1 (F := F)) := by
  rw [View.read_writes_eq_canon _ _ _ (coverFirst c i arg2 harg2 arg3 harg3 arg4 harg4 hc0 x0 x1)]
  unfold runFirst
  dsimp only
  sl_unfold_run_names
  rw [View.canon_cons_unit_zero hz2]
  simp only [View.readAt_eq_ld, harg2.read_unread, harg3.read_unread, View.ld_unit_zero (S := S1024x256) hz2,
    View.readCov_unit_zero (S := S1024x1) _ hz2]

/-- At a later point it reads back as the update of the column the body found. -/
theorem readNext (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : ¬cond0 i)
    (x0 : Vec F S1024x256 .bf16) (x1 : Vec F S8192x256 .bf16) (xo : Vec F S1024x1 .f32) (f : arg4.view.ty.Contents (Elt F)) :
    arg4.view.read (Elt F) (arg4.view.writes (Elt F) f (runNext c i arg2 harg2 arg3 harg3 arg4 harg4 hc0 x0 x1 xo).1)
      = k0_pay2 (View.ld x1 (Rect.unit (s := S8192x256) (k0_off1 i) S1024x256.size (k0_off1_inb i))) x0 xo := by
  rw [View.read_writes_eq_canon _ _ _ (coverNext c i arg2 harg2 arg3 harg3 arg4 harg4 hc0 x0 x1 xo)]
  unfold runNext
  dsimp only
  sl_unfold_run_names
  rw [View.canon_unit_zero hz2]
  simp only [View.readAt_eq_ld, harg2.read_unread, harg3.read_unread, harg4.read_unread, View.ld_unit_zero (S := S1024x256) hz2,
    View.ld_unit_zero (S := S1024x1) hz2]

end Cert.Kernel.K

end
-- ==== Proof.WBody.lean ====
/- The row-sum kernel's body meets the pipeline's obligation at every point.

   What the body finds: each input window's buffer holds that window's block at the point whether or not it was
   fetched there (the first input's block changes only with the outer coordinate, the second is the whole array and
   never changes); the output buffer, at a point that is not the first of its row block, holds the column the point
   before left, because the column is written back only at the last point of a row block. With that, the two runs of
   the body apply, and what their stores leave reads back as the recursion's next value. -/
import proofs.«127673_j48945447305730_2_alg».proof.Proof.WBodyDefs
import proofs.«127673_j48945447305730_2_alg».proof.Proof.WBodyRuns

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds in each buffer -/

/-- The first input's buffer holds its block at every point, fetched there or not, for any proof data over the
    region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of the second input, whose block is the whole array. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

/-- At a point that is not the first of its row block the output buffer holds what the body left at the point before:
    the point is not the first of all, and the column was not written back between (that happens only after a point
    ≡ 7 mod 8). -/
theorem before0_2_next (c : Dev nD) (t : Fin cfg0.N) (h0 : ¬t.val % 8 = 0) (d) :
    (dats m 0 c).before 2 t d = outsAt m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- Each window's current staging buffer at point t, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the point is the first of its row block or not; in
    the second case the output buffer holds the column the point before left; so the matching run applies, and what
    its stores leave reads back as the recursion's value at the point. The invariant passes through unread and the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 8 = 0
  · rw [outsAt_first m c t h0]
    unfold rhsRows
    iintro ⟨HΦ, Ho, ⟨%d0, H0⟩, ⟨%d1, H1⟩, ⟨%d2, H2⟩⟩
    iapply ((runFirst c (grid0.coords t) _ _ _ _ _ _ ((hcond0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact readFirst c _ _ _ _ _ _ _ _ _ _ _
  · rw [outsAt_next m c t h0]
    simp only [before0_2_next m c t h0]
    unfold rhsRows
    iintro ⟨HΦ, Ho, ⟨%d0, H0⟩, ⟨%d1, H1⟩, ⟨%d2, H2⟩⟩
    iapply ((runNext c (grid0.coords t) _ _ _ _ _ _ (fun h => h0 ((hcond0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact readNext c _ _ _ _ _ _ _ _ _ _ _ _

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- info: 'Cert.Kernel.K.body_obligation' depends on axioms: [propext, Classical.choice, Quot.sound] -/
#guard_msgs in #print axioms body_obligation

end Cert.Kernel.K

end
-- ==== Proof.WLaunch.lean ====
/- The launch of the row-sum kernel's program: @main is twenty-two host operations, one kernel region and seventeen host
   operations. The region's two input windows read ONE array (the stacked normalised rows), so that array is held in two
   halves, one per window, while the region runs, and whole again before and after it; the output array is held whole
   throughout and ends at what the write-backs of the sixty-four points leave in it; every other buffer rides along. -/
import proofs.«127673_j48945447305730_2_alg».proof.Proof.WBody
import Idealize.ShloMosaic.Lib.Pipeline.Frame

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers, stage by stage -/

/-- The stacked array both input windows read, and the array of row sums the region writes. -/
abbrev r17 : DevRef τ sig := Proc.devRef .tc main_v17
abbrev r18 : DevRef τ sig := Proc.devRef .tc main_v18

/-- Core c's buffers as launched; -/
abbrev Vin (c : Dev nD) : Valuation τ sig (Elt F) := fun b => m (c, b)

/-- when the region is left: the row sums at what the write-backs made of them, everything else as the region found it; -/
def Vmid (c : Dev nD) : Valuation τ sig (Elt F) :=
  Function.update (V₀ m c) r18 ((dats m 0 c).arrAt 2 cfg0.N)

/-- and at the end of @main. -/
def Vend (c : Dev nD) : Valuation τ sig (Elt F) := StableHlo.after hostOps1 (Vmid m c)

/-! ## The unscoped buffers: the two arrays of the region and the rest -/

/-- Every unscoped buffer but the two the region's windows stage. -/
def others : Finset (DevRef τ sig) := Pipeline.ucRefs τ sig \ {r17, r18}

theorem pair_sub : ({r17, r18} : Finset (DevRef τ sig)) ⊆ Pipeline.ucRefs τ sig := by decide
theorem r17_nmem : r17 ∉ ({r18} : Finset (DevRef τ sig)) := by decide

/-- All the unscoped buffers held at a valuation: the stacked array, the row sums, and the others. -/
theorem held_all (c : Dev nD) (W : Valuation τ sig (Elt F)) :
    (StableHlo.held (c.tc : Thread nD τ) (Pipeline.ucRefs τ sig) W : sProp 𝕄)
      = iprop((((c, r17) ↦{fullShare} W r17) ∗ ((c, r18) ↦{fullShare} W r18)) ∗ StableHlo.held (c.tc : Thread nD τ) others W) := by
  rw [StableHlo.held_sub_split _ pair_sub W]
  congr 1
  unfold StableHlo.held
  rw [bigSep_insert r17_nmem, bigSep_singleton]
  rfl

/-- Off the row sums the buffers at the region's exit are those at its entry. -/
theorem held_others_mid (c : Dev nD) :
    (StableHlo.held (c.tc : Thread nD τ) others (Vmid m c) : sProp 𝕄) = StableHlo.held (c.tc : Thread nD τ) others (V₀ m c) := by
  unfold StableHlo.held
  refine bigSep_congr fun b hb => ?_
  have hne : b ≠ r18 := fun h => by
    subst h
    exact absurd hb (by decide)
  rw [Vmid, Function.update_of_ne hne]

theorem Vmid_r18 (c : Dev nD) : Vmid m c r18 = (dats m 0 c).arrAt 2 cfg0.N := Function.update_self ..
theorem Vmid_r17 (c : Dev nD) : Vmid m c r17 = V₀ m c r17 := Function.update_of_ne (by decide) ..

/-- The pipeline's arrays at contents Fa: the stacked array in two halves, the row sums whole. -/
theorem arrays_three (c : Dev nD) (Fa : (w : Fin cfg0.W) → Buf (Elt F) ((cfg0.win w).arr.view.loc (c.tc : Thread nD τ))) :
    ((dats m 0 c).arrays Fa : sProp 𝕄)
      = iprop(((c, r17) ↦{fullShare.left} Fa 0) ∗ ((c, r17) ↦{fullShare.right} Fa 1) ∗ ((c, r18) ↦{fullShare} Fa 2)) := by
  unfold Pipeline.Dat.arrays
  rw [bigSep_W0]
  rw [(arr_whole0 0).set_eq_univ, (arr_whole0 2).set_eq_univ]
  rfl

/-! ## The segments of @main -/

abbrev adm : (p : Fin 1) → (pcfgs (F := F) p).Adm := fun p => (cfgs p).toPCfg_adm

/-- The proof data as the segment library indexes it. -/
def pdats : (p : Fin 1) → (c : Dev nD) → Dat τ (Elt F) Unit ℕ (UR sig nD τ) ℕ (Pipeline.pin (pcfgs (F := F)) adm p) c :=
  fun p c => dats m p c

abbrev Lq : GSem nD τ sig → Finset Unit := fun _ => ∅
abbrev lq : GSem nD τ sig → Unit → ℕ := fun _ _ => 0

/-- What rides beside the buffers through every segment: the generator register, and the core owing nothing. -/
abbrev Rr (c : Dev nD) : sProp 𝕄 := iprop((∃ r, prngReg c r) ∗ ∃ W, owes (c.tc : Thread nD τ) (0 : CellTallies nD τ sig Unit) W)

local notation "ℍ" => Pipeline.HostSeg (Name := ℕ) (U := UR sig nD τ) (pcfgs (F := F)) defs₀ Variants.none Lq lq
local notation "ℝ𝕊" => Pipeline.RegionSeg (pcfgs (F := F)) adm (pdats m) () defs₀ Variants.none Lq lq

theorem ops0_sub : ∀ op ∈ (hostOps0 : List (HloOp τ sig (Elt F))), op.bufs ⊆ Pipeline.ucRefs τ sig := fun op h =>
  Pipeline.sub_ucRefs op ((List.forall_iff_forall_mem.mp hostOps0_sub) op h)
theorem ops1_sub : ∀ op ∈ (hostOps1 : List (HloOp τ sig (Elt F))), op.bufs ⊆ Pipeline.ucRefs τ sig := fun op h =>
  Pipeline.sub_ucRefs op ((List.forall_iff_forall_mem.mp hostOps1_sub) op h)
theorem ops0_fresh : ∀ op ∈ (hostOps0 : List (HloOp τ sig (Elt F))), op.fresh = ∅ :=
  List.forall_iff_forall_mem.mp (show (hostOps0 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl⟩)
theorem ops1_fresh : ∀ op ∈ (hostOps1 : List (HloOp τ sig (Elt F))), op.fresh = ∅ :=
  List.forall_iff_forall_mem.mp (show (hostOps1 : List (HloOp τ sig (Elt F))).Forall fun op => op.fresh = ∅ from
    ⟨rfl, rfl, rfl, rfl, rfl, rfl, rfl, rfl, rfl, rfl, rfl, rfl, rfl, rfl, rfl, rfl, rfl⟩)

/-- The host operations before the region, over all the unscoped buffers as launched. -/
def segA : ℍ := Pipeline.HostSeg.ofOps _ _ _ _ _ (Pipeline.ucRefs τ sig) hostOps0 ops0_sub ops0_fresh (Vin m) Rr
/-- The host operations after it, over the buffers as the region leaves them. -/
def segC : ℍ := Pipeline.HostSeg.ofOps _ _ _ _ _ (Pipeline.ucRefs τ sig) hostOps1 ops1_sub ops1_fresh (Vmid m) Rr

theorem owesAt_intro (c : Dev nD) (t : Fin (cfg0.N + 1)) :
    iprop(∃ W, owes (c.tc : Thread nD τ) (0 : CellTallies nD τ sig Unit) W) ⊢ ((pdats m 0 c).owesAt () t : sProp 𝕄) := by
  unfold Pipeline.Dat.owesAt Pipeline.owesWithin Pipeline.Dat.bound
  rw [show (pdats m 0 c).owed t = 0 from rfl, show (pdats m 0 c).recorded t = Set.univ from rfl]
  iintro ⟨%W, HO⟩; iexists W; isplitr; · ipureintro; exact fun _ _ => Or.inl trivial
  iexact HO
theorem owesAt_elim (c : Dev nD) (t : Fin (cfg0.N + 1)) :
    ((pdats m 0 c).owesAt () t : sProp 𝕄) ⊢ iprop(∃ W, owes (c.tc : Thread nD τ) (0 : CellTallies nD τ sig Unit) W) := by
  unfold Pipeline.Dat.owesAt Pipeline.owesWithin
  rw [show (pdats m 0 c).owed t = 0 from rfl]
  iintro ⟨%W, -, HO⟩; iexists W; iexact HO

theorem bigSep_none {M : Type} [URA M] (Φ : Fin 0 → sProp M) : bigSep Finset.univ Φ = (BI.emp : sProp M) :=
  bigSep_univ_eq_bigSepL [] (by decide) (by decide) Φ

theorem prefHeld_none (c : Dev nD) (q) (pf) :
    (Pipeline.prefHeld (Ix := Unit) (Name := ℕ) (U := UR sig nD τ) (Lvl := ℕ) (Val := Elt F) (pcfgs (F := F) 0).pre c q pf : sProp 𝕄) = BI.emp :=
  bigSep_none _

/-- THE REGION, entered from what the first host operations left: the stacked array split in two halves for the two
    input windows, the row sums whole, the generator register into the invariant, every other buffer bypassing; left with
    the stacked array whole again and unchanged, the row sums at what the write-backs made of them. -/
def segB : ℝ𝕊 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lq lq 0 fun _ _ => rfl
  pre c := iprop(StableHlo.held (c.tc : Thread nD τ) (Pipeline.ucRefs τ sig) (V₀ m c) ∗ Rr c)
  post c := iprop(StableHlo.held (c.tc : Thread nD τ) (Pipeline.ucRefs τ sig) (Vmid m c) ∗ Rr c)
  X c := iprop(∃ r, prngReg c r)
  Y c := iprop(∃ r, prngReg c r)
  Z c := StableHlo.held (c.tc : Thread nD τ) others (V₀ m c)
  hentry c := by
    rw [held_all, Pipeline.ownSems0_none, prefHeld_none]
    rw [show ((pdats m 0 c).arrays ((pdats m 0 c).arrAt · 0) : sProp 𝕄) = (dats m 0 c).arrays ((dats m 0 c).arrAt · 0) from rfl, arrays_three]
    iintro ⟨⟨⟨⟨H17, H18⟩, Hrest⟩, Hp, HO⟩, -, -⟩
    imodintro
    ihave H17 := (pointsTo_share (PosShare.mem_left_op_right fullShare)).1 $$ H17
    icases H17 with ⟨H17l, H17r⟩
    isplitl [H17l H17r H18]
    · isplitl [H17l]; · iexact H17l
      isplitl [H17r]; · iexact H17r
      iexact H18
    isplitr; · iempintro
    isplitl [HO]; · iapply (owesAt_intro m c 0); iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [show (pdats m 0 c).Φ (Fin.last _) = Pipeline.ΦA spec0 c from rfl, Pipeline.ownSems0_none]
    unfold Pipeline.ΦA
    iintro ⟨Hr, Hp⟩
    isplitl [Hp]; · iexact Hp
    isplitr; · iempintro
    iexact Hr
  hexit c := by
    rw [held_all, held_others_mid, Vmid_r17, Vmid_r18]
    rw [show ((pdats m 0 c).arrays ((pdats m 0 c).arrAt · (Pipeline.pin (pcfgs (F := F)) adm 0).N) : sProp 𝕄)
        = (dats m 0 c).arrays ((dats m 0 c).arrAt · cfg0.N) from rfl, arrays_three]
    rw [(dats m 0 c).arrAt_in 0 rfl cfg0.N, (dats m 0 c).arrAt_in 1 rfl cfg0.N]
    iintro ⟨⟨H17l, H17r, H18⟩, HO, Hp, Hrest⟩
    imodintro
    ihave H17 := (pointsTo_share (PosShare.mem_left_op_right fullShare)).2 $$ [H17l H17r]
    · isplitl [H17l]; · iexact H17l
      iexact H17r
    isplitl [H17 H18 Hrest]
    · isplitl [H17 H18]
      · isplitl [H17]; · iexact H17
        iexact H18
      iexact Hrest
    isplitl [Hp]; · iexact Hp
    iapply (owesAt_elim m c _); iexact HO

/-! ## The run -/

/-- @main as its three segments. -/
def segs : List (Pipeline.Seg (pcfgs (F := F)) adm (pdats m) () defs₀ Variants.none Lq lq) :=
  [.host (segA m), .region (segB m), .host (segC m)]

theorem main_eq (c : Dev nD) : main (F := F) c = Pipeline.Seg.run (segs m) :=
  main_segs adm (pdats m) () Variants.none Lq lq (segA m) (segC m) (segB m) rfl rfl c

/-- The staging cells are pairwise distinct. -/
theorem cells_inj : Function.Injective (Pipeline.cellOf (nD := nD) (τ := τ) (Pipeline.pin (pcfgs (F := F)) adm)) :=
  cellOf_inj

/-- What every final memory holds on core c: each unscoped buffer at the end-of-@main contents. -/
def QY (c : Dev nD) (s : MemSt nD τ sig (Elt F)) : Prop :=
  ∀ b ∈ Pipeline.ucRefs τ sig, s.mem (c, b) = Vend m c b

set_option backward.isDefEq.respectTransparency.types false in
/-- THE RUN, at any float instance: from any memory with zero counters every weakly fair execution of @main terminates,
    nothing faulting, and every unscoped buffer ends at the contents the three segments compute. -/
theorem run_main : θ_run defs (onTc (τ := τ) (main (F := F))) (s₀ m ρ) (fun r => ∀ c : Dev nD, QY m c r.2) :=
  Pipeline.θ_run_regions_kit (pcfgs (F := F)) adm (pdats m) () cells_inj emb₁ defs₀ Variants.none Lq lq m ρ main (segs m)
    (fun c Q => by rw [main_eq m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cells_inj) (Pipeline.launchToks (Pipeline.pin (pcfgs (F := F)) adm) cells_inj))
    (hu₀ := by
      iintro Hu; imodintro
      isplitl [Hu]
      · iapply (show (ownU _ : sProp 𝕄) ⊢ BI.own (emb₁ (initOf (Pipeline.cells (Pipeline.pin (pcfgs (F := F)) adm) cells_inj) (Pipeline.launchToks (Pipeline.pin (pcfgs (F := F)) adm) cells_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (Vin m c) ∗ Rr c))
    (Tₙ := fun c => iprop(StableHlo.held (c.tc : Thread nD τ) (Pipeline.ucRefs τ sig) (Vend m c) ∗ ∃ r, prngReg c r))
    (hch := by
      refine ⟨fun c => .rfl, fun c => .rfl, fun c => .rfl, fun c => ?_⟩
      show iprop(StableHlo.held (c.tc : Thread nD τ) (Pipeline.ucRefs τ sig) (StableHlo.after hostOps1 (Vmid m c)) ∗ Rr c)
        ⊢ iprop((StableHlo.held (c.tc : Thread nD τ) (Pipeline.ucRefs τ sig) (Vend m c) ∗ ∃ r, prngReg c r) ∗ ∃ W, owes (c.tc : Thread nD τ) (0 : CellTallies nD τ sig Unit) W)
      iintro ⟨Hh, Hp, HO⟩
      isplitr [HO]
      · isplitl [Hh]; · iexact Hh
        iexact Hp
      · iexact HO)
    (hinit := by
      refine Pipeline.initEach Lq lq fun c => ?_
      rw [show unscopedBufs c (fun b => m ((c.tc : Thread nD τ).loc b)) = StableHlo.held (c.tc : Thread nD τ) (Pipeline.ucRefs τ sig) (Vin m c) from
        Pipeline.unscopedBufs_held c (Vin m c)]
      iintro ⟨⟨Hh, -, HO, -, Hp, -⟩, -⟩
      imodintro
      isplitl [Hh]; · iexact Hh
      isplitl [Hp]; · iexists _; iexact Hp
      iexists ∅; iexact HO)
    (QY := QY m)
    (hfin := fun c s' => by
      unfold StableHlo.held
      iintro ⟨⟨Hh, -⟩, HSI⟩
      imodintro
      iapply (pointsTo_read_all (Pipeline.ucRefs τ sig) (fun b => (c, b)) (Vend m c) s')
      isplitl [Hh]; · iexact Hh
      iexact HSI)
    (hQ := fun s h c => h c)

end Cert.Kernel.K

end
-- ==== Proof.WFrame.lean ====
/- The frame of the row-sum kernel's program, at any float instance: every host operation writes a buffer of its own, so
   the two argument arrays end as they were launched; and the result buffer ends at what the last host operations
   compute from the region's row sums. -/
import proofs.«127673_j48945447305730_2_alg».proof.Proof.WLaunch

set_option maxRecDepth 16384

noncomputable section

namespace Cert.Kernel.K

open Cert.Kernel Cert.Kernel.Gen
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ) (ρ : Dev nD → PrngReg)

/-- No host operation before the region writes an argument array; -/
theorem V₀_arg0 (c : Dev nD) : V₀ m c (Proc.devRef .tc main_arg0) = m (c, Proc.devRef .tc main_arg0) := by
  dsimp only [V₀, hostOps0]
  after_results_simp <;> rfl
theorem V₀_arg1 (c : Dev nD) : V₀ m c (Proc.devRef .tc main_arg1) = m (c, Proc.devRef .tc main_arg1) := by
  dsimp only [V₀, hostOps0]
  after_results_simp <;> rfl

/-- nor does the region, nor any host operation after it. -/
theorem Vend_arg0 (c : Dev nD) : Vend m c (Proc.devRef .tc main_arg0) = m (c, Proc.devRef .tc main_arg0) := by
  unfold Vend
  dsimp only [hostOps1]
  after_results_simp
  rw [Vmid, Function.update_of_ne (by decide)]
  exact V₀_arg0 m c
theorem Vend_arg1 (c : Dev nD) : Vend m c (Proc.devRef .tc main_arg1) = m (c, Proc.devRef .tc main_arg1) := by
  unfold Vend
  dsimp only [hostOps1]
  after_results_simp
  rw [Vmid, Function.update_of_ne (by decide)]
  exact V₀_arg1 m c

/-- The run, read at the result and at the two arguments. -/
theorem run_result : θ_run defs (onTc (τ := τ) (main (F := F))) ⟨m, fun _ => 0, ρ⟩ (fun r => ∀ c : Dev nD,
      r.2.mem ((c.tc : Thread nD τ).loc main_v30) = Vend m c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c (Proc.devRef .tc main_v30) (by decide),
     (h c (Proc.devRef .tc main_arg0) (by decide)).trans (Vend_arg0 m c),
     (h c (Proc.devRef .tc main_arg1) (by decide)).trans (Vend_arg1 m c)⟩) (run_main m ρ)

/-- THE FRAME: the program runs to the end, nothing faulting, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.Kernel.K

end
-- ==== Proof.KBodyDefs.lean ====
/- The row-sum kernel's body, point by point, for any float instance.

   The grid is 8 × 8; point t = 8·i + j works on row block i of the stacked array (1024 rows of 256 entries) against
   row block j of the same array, and adds to the running column of 1024 row sums the sums over that block's 1024
   columns of exp(2 · ⟨row, column-row⟩). At j = 0 the running column is first set to zero. This module names what
   the body reads at a point (the row block, the 1024 rows of the whole array it multiplies against), states what the
   output column holds after each point as a recursion over the points through the body's arithmetic alone, and
   gives the proof data of the pipeline built from them. -/
import proofs.«127673_j48945447305730_2_alg».proof.Proof.Gen.KernelIdeal.Launch
import proofs.«127673_j48945447305730_2_alg».proof.Proof.Gen.KernelIdeal.Skeleton
import proofs.«127673_j48945447305730_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered, and the windows' blocks -/

/-- Core c's buffers when the region is entered: the launch memory after the host operations that normalise the two
    inputs, stack them and round the stack to bf16. -/
abbrev V₀ (c : Dev nD) : Valuation τ sig (Elt F) := StableHlo.after hostOps0 (fun b => m (c, b))

/-- The same, one buffer at a time. -/
abbrev V (c : Dev nD) (b : Ref sig .tc) : Buf (Elt F) ((c : Thread nD τ).loc b) := V₀ m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 1024 rows of the whole stacked array that point t multiplies its row block against: rows 1024·j … 1024·j + 1023
    of window 1's block (which is the whole array), j the point's inner coordinate. -/
def rhsRows (c : Dev nD) (t : Fin cfg0.N) : Vec F S1024x256 .bf16 :=
  View.ld (iblk m c 1 t) (Rect.unit (s := S8192x256) (k0_off1 (grid0.coords t)) S1024x256.size (k0_off1_inb (grid0.coords t)))

/-! ## What the output column holds after each point -/

/-- The running column of row sums after the body at position n: at the first point of a row block (n ≡ 0 mod 8) the
    body's update of the zero column, otherwise its update of what the point before left. -/
def outsAt (c : Dev nD) : (n : ℕ) → n < cfg0.N → Vec F S1024x1 .f32
  | 0, hn => k0_pay2 (rhsRows m c ⟨0, hn⟩) (iblk m c 0 ⟨0, hn⟩) (k0_pay1 (F := F))
  | n + 1, hn =>
    if (n + 1) % 8 = 0 then
      k0_pay2 (rhsRows m c ⟨n + 1, hn⟩) (iblk m c 0 ⟨n + 1, hn⟩) (k0_pay1 (F := F))
    else
      k0_pay2 (rhsRows m c ⟨n + 1, hn⟩) (iblk m c 0 ⟨n + 1, hn⟩) (outsAt c n (Nat.lt_of_succ_lt hn))

/-- At the first point of a row block the column is the update of zero; -/
theorem outsAt_first (c : Dev nD) (t : Fin cfg0.N) (h0 : t.val % 8 = 0) :
    outsAt m c t.val t.isLt = k0_pay2 (rhsRows m c t) (iblk m c 0 t) (k0_pay1 (F := F)) := by
  obtain ⟨n, hn⟩ := t
  cases n with
  | zero => exact rfl
  | succ n => exact (if_pos h0).trans rfl

/-- at any other point, the update of what the point before left. -/
theorem outsAt_next (c : Dev nD) (t : Fin cfg0.N) (h0 : ¬t.val % 8 = 0) :
    outsAt m c t.val t.isLt = k0_pay2 (rhsRows m c t) (iblk m c 0 t) (outsAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the pipeline on core c: the arrays as the region finds them; after the body at point t the two
    input windows' buffers at their blocks and the output's at the running column; the two input windows stage one
    and the same array, so each holds half of it and the output all of its own; nothing owed. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t.val t.isLt := by dsimp only [dats]

end Cert.KernelIdeal.K

end
-- ==== Proof.KBodyRuns.lean ====
/- The row-sum kernel's body run on any three whole staging buffers, in its two control cases.

   At a point whose inner coordinate is 0 the body first overwrites the output column with zeros and then replaces it
   by its update; at any other point it replaces the column it finds by its update. In both cases the two input
   buffers are only read. Each run is stated with the list of pieces the stores leave in the output buffer as its
   witness. -/
import proofs.«127673_j48945447305730_2_alg».proof.Proof.Gen.KernelIdeal.Launch
import proofs.«127673_j48945447305730_2_alg».proof.Proof.Gen.KernelIdeal.Skeleton
import proofs.«127673_j48945447305730_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one branch, from the grid coordinates: the inner coordinate is 0. -/
abbrev cond0 (i : grid0.Coords) : Prop :=
  (Scalar.cmpi .ne (Scalar.extui (Scalar.cmpi .eq (BitVec.ofNat 32 (i 1).val) 0#32)) 0#32) = 1#1

/-- It holds exactly at the first point of each row block — decided over the 64 points. -/
theorem hcond0 : ∀ t : Fin cfg0.N, cond0 (grid0.coords t) ↔ t.val % 8 = 0 :=
  (by decide +kernel : ∀ t : Fin grid0.N, cond0 (grid0.coords t) ↔ t.val % 8 = 0)

/-! ## The run at a first point -/

set_option maxHeartbeats 1000000 in
/-- At a point where the condition holds: from the two input buffers whole at x0 and x1 and the output buffer whole at
    anything, the body runs to the inputs as they were and the output buffer with the pieces written. -/
noncomputable def runFirst (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : cond0 i)
    (x0 : Vec F S1024x256 .bf16) (x1 : Vec F S8192x256 .bf16) :
    { L : List (View.Piece (Elt F) S1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__rowsum_kernel i arg2 harg2 arg3 harg3 arg4 harg4) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The run at a later point -/

set_option maxHeartbeats 1000000 in
/-- At a point where the condition fails: from the two input buffers whole at x0 and x1 and the output buffer whole at
    the running column xo, the body runs to the inputs as they were and the output buffer with the pieces written. -/
noncomputable def runNext (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : ¬cond0 i)
    (x0 : Vec F S1024x256 .bf16) (x1 : Vec F S8192x256 .bf16) (xo : Vec F S1024x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__rowsum_kernel i arg2 harg2 arg3 harg3 arg4 harg4) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What the stores leave, through the body's arithmetic -/

/-- The zero offsets of a whole-buffer access, as a constant function. -/
theorem hz2 : (![0, 0] : Fin 2 → ℕ) = fun _ => 0 := by
  funext a; match a with | ⟨0, _⟩ => rfl | ⟨1, _⟩ => rfl

/-- At a first point the pieces tile the output column (two stores of the whole column), so they cover it. -/
theorem coverFirst (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : cond0 i)
    (x0 : Vec F S1024x256 .bf16) (x1 : Vec F S8192x256 .bf16) (y : S1024x1.Idx) :
    ∃ pc ∈ (runFirst c i arg2 harg2 arg3 harg3 arg4 harg4 hc0 x0 x1).1, y ∈ pc.1.set :=
  View.cover_of_tiledL (runFirst c i arg2 harg2 arg3 harg3 arg4 harg4 hc0 x0 x1).1 S1024x1.size (by sl_kernel_rfl) y

/-- At a later point the one store of the whole column covers it. -/
theorem coverNext (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : ¬cond0 i)
    (x0 : Vec F S1024x256 .bf16) (x1 : Vec F S8192x256 .bf16) (xo : Vec F S1024x1 .f32) (y : S1024x1.Idx) :
    ∃ pc ∈ (runNext c i arg2 harg2 arg3 harg3 arg4 harg4 hc0 x0 x1 xo).1, y ∈ pc.1.set :=
  View.cover_of_tiledL (runNext c i arg2 harg2 arg3 harg3 arg4 harg4 hc0 x0 x1 xo).1 S1024x1.size (by sl_kernel_rfl) y

/-- At a first point the output buffer reads back as the body's update of the zero column: the last store covers the
    column, its payload is the update of what the three loads read — the 1024 rows of the second input at the point's
    offset, all of the first input, and the column just zeroed. -/
theorem readFirst (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : cond0 i)
    (x0 : Vec F S1024x256 .bf16) (x1 : Vec F S8192x256 .bf16) (f : arg4.view.ty.Contents (Elt F)) :
    arg4.view.read (Elt F) (arg4.view.writes (Elt F) f (runFirst c i arg2 harg2 arg3 harg3 arg4 harg4 hc0 x0 x1).1)
      = k0_pay2 (View.ld x1 (Rect.unit (s := S8192x256) (k0_off1 i) S1024x256.size (k0_off1_inb i))) x0 (k0_pay1 (F := F)) := by
  rw [View.read_writes_eq_canon _ _ _ (coverFirst c i arg2 harg2 arg3 harg3 arg4 harg4 hc0 x0 x1)]
  unfold runFirst
  dsimp only
  sl_unfold_run_names
  rw [View.canon_cons_unit_zero hz2]
  simp only [View.readAt_eq_ld, harg2.read_unread, harg3.read_unread, View.ld_unit_zero (S := S1024x256) hz2,
    View.readCov_unit_zero (S := S1024x1) _ hz2]

/-- At a later point it reads back as the update of the column the body found. -/
theorem readNext (c : Dev nD) (i : grid0.Coords)
    (arg2 : Memref sig .tc .vmem S1024x256 .bf16) (harg2 : arg2.IsWhole)
    (arg3 : Memref sig .tc .vmem S8192x256 .bf16) (harg3 : arg3.IsWhole)
    (arg4 : Memref sig .tc .vmem S1024x1 .f32) (harg4 : arg4.IsWhole) (hc0 : ¬cond0 i)
    (x0 : Vec F S1024x256 .bf16) (x1 : Vec F S8192x256 .bf16) (xo : Vec F S1024x1 .f32) (f : arg4.view.ty.Contents (Elt F)) :
    arg4.view.read (Elt F) (arg4.view.writes (Elt F) f (runNext c i arg2 harg2 arg3 harg3 arg4 harg4 hc0 x0 x1 xo).1)
      = k0_pay2 (View.ld x1 (Rect.unit (s := S8192x256) (k0_off1 i) S1024x256.size (k0_off1_inb i))) x0 xo := by
  rw [View.read_writes_eq_canon _ _ _ (coverNext c i arg2 harg2 arg3 harg3 arg4 harg4 hc0 x0 x1 xo)]
  unfold runNext
  dsimp only
  sl_unfold_run_names
  rw [View.canon_unit_zero hz2]
  simp only [View.readAt_eq_ld, harg2.read_unread, harg3.read_unread, harg4.read_unread, View.ld_unit_zero (S := S1024x256) hz2,
    View.ld_unit_zero (S := S1024x1) hz2]

end Cert.KernelIdeal.K

end
-- ==== Proof.KBody.lean ====
/- The row-sum kernel's body meets the pipeline's obligation at every point.

   What the body finds: each input window's buffer holds that window's block at the point whether or not it was
   fetched there (the first input's block changes only with the outer coordinate, the second is the whole array and
   never changes); the output buffer, at a point that is not the first of its row block, holds the column the point
   before left, because the column is written back only at the last point of a row block. With that, the two runs of
   the body apply, and what their stores leave reads back as the recursion's next value. -/
import proofs.«127673_j48945447305730_2_alg».proof.Proof.KBodyDefs
import proofs.«127673_j48945447305730_2_alg».proof.Proof.KBodyRuns

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds in each buffer -/

/-- The first input's buffer holds its block at every point, fetched there or not, for any proof data over the
    region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of the second input, whose block is the whole array. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

/-- At a point that is not the first of its row block the output buffer holds what the body left at the point before:
    the point is not the first of all, and the column was not written back between (that happens only after a point
    ≡ 7 mod 8). -/
theorem before0_2_next (c : Dev nD) (t : Fin cfg0.N) (h0 : ¬t.val % 8 = 0) (d) :
    (dats m 0 c).before 2 t d = outsAt m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- Each window's current staging buffer at point t, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the point is the first of its row block or not; in
    the second case the output buffer holds the column the point before left; so the matching run applies, and what
    its stores leave reads back as the recursion's value at the point. The invariant passes through unread and the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 8 = 0
  · rw [outsAt_first m c t h0]
    unfold rhsRows
    iintro ⟨HΦ, Ho, ⟨%d0, H0⟩, ⟨%d1, H1⟩, ⟨%d2, H2⟩⟩
    iapply ((runFirst c (grid0.coords t) _ _ _ _ _ _ ((hcond0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact readFirst c _ _ _ _ _ _ _ _ _ _ _
  · rw [outsAt_next m c t h0]
    simp only [before0_2_next m c t h0]
    unfold rhsRows
    iintro ⟨HΦ, Ho, ⟨%d0, H0⟩, ⟨%d1, H1⟩, ⟨%d2, H2⟩⟩
    iapply ((runNext c (grid0.coords t) _ _ _ _ _ _ (fun h => h0 ((hcond0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact readNext c _ _ _ _ _ _ _ _ _ _ _ _

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- info: 'Cert.KernelIdeal.K.body_obligation' depends on axioms: [propext, Classical.choice, Quot.sound] -/
#guard_msgs in #print axioms body_obligation

end Cert.KernelIdeal.K

end
-- ==== Proof.KLaunch.lean ====
/- The launch of the row-sum kernel's program: @main is twenty-two host operations, one kernel region and seventeen host
   operations. The region's two input windows read ONE array (the stacked normalised rows), so that array is held in two
   halves, one per window, while the region runs, and whole again before and after it; the output array is held whole
   throughout and ends at what the write-backs of the sixty-four points leave in it; every other buffer rides along. -/
import proofs.«127673_j48945447305730_2_alg».proof.Proof.KBody
import Idealize.ShloMosaic.Lib.Pipeline.Frame

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers, stage by stage -/

/-- The stacked array both input windows read, and the array of row sums the region writes. -/
abbrev r17 : DevRef τ sig := Proc.devRef .tc main_v17
abbrev r18 : DevRef τ sig := Proc.devRef .tc main_v18

/-- Core c's buffers as launched; -/
abbrev Vin (c : Dev nD) : Valuation τ sig (Elt F) := fun b => m (c, b)

/-- when the region is left: the row sums at what the write-backs made of them, everything else as the region found it; -/
def Vmid (c : Dev nD) : Valuation τ sig (Elt F) :=
  Function.update (V₀ m c) r18 ((dats m 0 c).arrAt 2 cfg0.N)

/-- and at the end of @main. -/
def Vend (c : Dev nD) : Valuation τ sig (Elt F) := StableHlo.after hostOps1 (Vmid m c)

/-! ## The unscoped buffers: the two arrays of the region and the rest -/

/-- Every unscoped buffer but the two the region's windows stage. -/
def others : Finset (DevRef τ sig) := Pipeline.ucRefs τ sig \ {r17, r18}

theorem pair_sub : ({r17, r18} : Finset (DevRef τ sig)) ⊆ Pipeline.ucRefs τ sig := by decide
theorem r17_nmem : r17 ∉ ({r18} : Finset (DevRef τ sig)) := by decide

/-- All the unscoped buffers held at a valuation: the stacked array, the row sums, and the others. -/
theorem held_all (c : Dev nD) (W : Valuation τ sig (Elt F)) :
    (StableHlo.held (c.tc : Thread nD τ) (Pipeline.ucRefs τ sig) W : sProp 𝕄)
      = iprop((((c, r17) ↦{fullShare} W r17) ∗ ((c, r18) ↦{fullShare} W r18)) ∗ StableHlo.held (c.tc : Thread nD τ) others W) := by
  rw [StableHlo.held_sub_split _ pair_sub W]
  congr 1
  unfold StableHlo.held
  rw [bigSep_insert r17_nmem, bigSep_singleton]
  rfl

/-- Off the row sums the buffers at the region's exit are those at its entry. -/
theorem held_others_mid (c : Dev nD) :
    (StableHlo.held (c.tc : Thread nD τ) others (Vmid m c) : sProp 𝕄) = StableHlo.held (c.tc : Thread nD τ) others (V₀ m c) := by
  unfold StableHlo.held
  refine bigSep_congr fun b hb => ?_
  have hne : b ≠ r18 := fun h => by
    subst h
    exact absurd hb (by decide)
  rw [Vmid, Function.update_of_ne hne]

theorem Vmid_r18 (c : Dev nD) : Vmid m c r18 = (dats m 0 c).arrAt 2 cfg0.N := Function.update_self ..
theorem Vmid_r17 (c : Dev nD) : Vmid m c r17 = V₀ m c r17 := Function.update_of_ne (by decide) ..

/-- The pipeline's arrays at contents Fa: the stacked array in two halves, the row sums whole. -/
theorem arrays_three (c : Dev nD) (Fa : (w : Fin cfg0.W) → Buf (Elt F) ((cfg0.win w).arr.view.loc (c.tc : Thread nD τ))) :
    ((dats m 0 c).arrays Fa : sProp 𝕄)
      = iprop(((c, r17) ↦{fullShare.left} Fa 0) ∗ ((c, r17) ↦{fullShare.right} Fa 1) ∗ ((c, r18) ↦{fullShare} Fa 2)) := by
  unfold Pipeline.Dat.arrays
  rw [bigSep_W0]
  rw [(arr_whole0 0).set_eq_univ, (arr_whole0 2).set_eq_univ]
  rfl

/-! ## The segments of @main -/

abbrev adm : (p : Fin 1) → (pcfgs (F := F) p).Adm := fun p => (cfgs p).toPCfg_adm

/-- The proof data as the segment library indexes it. -/
def pdats : (p : Fin 1) → (c : Dev nD) → Dat τ (Elt F) Unit ℕ (UR sig nD τ) ℕ (Pipeline.pin (pcfgs (F := F)) adm p) c :=
  fun p c => dats m p c

abbrev Lq : GSem nD τ sig → Finset Unit := fun _ => ∅
abbrev lq : GSem nD τ sig → Unit → ℕ := fun _ _ => 0

/-- What rides beside the buffers through every segment: the generator register, and the core owing nothing. -/
abbrev Rr (c : Dev nD) : sProp 𝕄 := iprop((∃ r, prngReg c r) ∗ ∃ W, owes (c.tc : Thread nD τ) (0 : CellTallies nD τ sig Unit) W)

local notation "ℍ" => Pipeline.HostSeg (Name := ℕ) (U := UR sig nD τ) (pcfgs (F := F)) defs₀ Variants.none Lq lq
local notation "ℝ𝕊" => Pipeline.RegionSeg (pcfgs (F := F)) adm (pdats m) () defs₀ Variants.none Lq lq

theorem ops0_sub : ∀ op ∈ (hostOps0 : List (HloOp τ sig (Elt F))), op.bufs ⊆ Pipeline.ucRefs τ sig := fun op h =>
  Pipeline.sub_ucRefs op ((List.forall_iff_forall_mem.mp hostOps0_sub) op h)
theorem ops1_sub : ∀ op ∈ (hostOps1 : List (HloOp τ sig (Elt F))), op.bufs ⊆ Pipeline.ucRefs τ sig := fun op h =>
  Pipeline.sub_ucRefs op ((List.forall_iff_forall_mem.mp hostOps1_sub) op h)
theorem ops0_fresh : ∀ op ∈ (hostOps0 : List (HloOp τ sig (Elt F))), op.fresh = ∅ :=
  List.forall_iff_forall_mem.mp (show (hostOps0 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl⟩)
theorem ops1_fresh : ∀ op ∈ (hostOps1 : List (HloOp τ sig (Elt F))), op.fresh = ∅ :=
  List.forall_iff_forall_mem.mp (show (hostOps1 : List (HloOp τ sig (Elt F))).Forall fun op => op.fresh = ∅ from
    ⟨rfl, rfl, rfl, rfl, rfl, rfl, rfl, rfl, rfl, rfl, rfl, rfl, rfl, rfl, rfl, rfl, rfl⟩)

/-- The host operations before the region, over all the unscoped buffers as launched. -/
def segA : ℍ := Pipeline.HostSeg.ofOps _ _ _ _ _ (Pipeline.ucRefs τ sig) hostOps0 ops0_sub ops0_fresh (Vin m) Rr
/-- The host operations after it, over the buffers as the region leaves them. -/
def segC : ℍ := Pipeline.HostSeg.ofOps _ _ _ _ _ (Pipeline.ucRefs τ sig) hostOps1 ops1_sub ops1_fresh (Vmid m) Rr

theorem owesAt_intro (c : Dev nD) (t : Fin (cfg0.N + 1)) :
    iprop(∃ W, owes (c.tc : Thread nD τ) (0 : CellTallies nD τ sig Unit) W) ⊢ ((pdats m 0 c).owesAt () t : sProp 𝕄) := by
  unfold Pipeline.Dat.owesAt Pipeline.owesWithin Pipeline.Dat.bound
  rw [show (pdats m 0 c).owed t = 0 from rfl, show (pdats m 0 c).recorded t = Set.univ from rfl]
  iintro ⟨%W, HO⟩; iexists W; isplitr; · ipureintro; exact fun _ _ => Or.inl trivial
  iexact HO
theorem owesAt_elim (c : Dev nD) (t : Fin (cfg0.N + 1)) :
    ((pdats m 0 c).owesAt () t : sProp 𝕄) ⊢ iprop(∃ W, owes (c.tc : Thread nD τ) (0 : CellTallies nD τ sig Unit) W) := by
  unfold Pipeline.Dat.owesAt Pipeline.owesWithin
  rw [show (pdats m 0 c).owed t = 0 from rfl]
  iintro ⟨%W, -, HO⟩; iexists W; iexact HO

theorem bigSep_none {M : Type} [URA M] (Φ : Fin 0 → sProp M) : bigSep Finset.univ Φ = (BI.emp : sProp M) :=
  bigSep_univ_eq_bigSepL [] (by decide) (by decide) Φ

theorem prefHeld_none (c : Dev nD) (q) (pf) :
    (Pipeline.prefHeld (Ix := Unit) (Name := ℕ) (U := UR sig nD τ) (Lvl := ℕ) (Val := Elt F) (pcfgs (F := F) 0).pre c q pf : sProp 𝕄) = BI.emp :=
  bigSep_none _

/-- THE REGION, entered from what the first host operations left: the stacked array split in two halves for the two
    input windows, the row sums whole, the generator register into the invariant, every other buffer bypassing; left with
    the stacked array whole again and unchanged, the row sums at what the write-backs made of them. -/
def segB : ℝ𝕊 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lq lq 0 fun _ _ => rfl
  pre c := iprop(StableHlo.held (c.tc : Thread nD τ) (Pipeline.ucRefs τ sig) (V₀ m c) ∗ Rr c)
  post c := iprop(StableHlo.held (c.tc : Thread nD τ) (Pipeline.ucRefs τ sig) (Vmid m c) ∗ Rr c)
  X c := iprop(∃ r, prngReg c r)
  Y c := iprop(∃ r, prngReg c r)
  Z c := StableHlo.held (c.tc : Thread nD τ) others (V₀ m c)
  hentry c := by
    rw [held_all, Pipeline.ownSems0_none, prefHeld_none]
    rw [show ((pdats m 0 c).arrays ((pdats m 0 c).arrAt · 0) : sProp 𝕄) = (dats m 0 c).arrays ((dats m 0 c).arrAt · 0) from rfl, arrays_three]
    iintro ⟨⟨⟨⟨H17, H18⟩, Hrest⟩, Hp, HO⟩, -, -⟩
    imodintro
    ihave H17 := (pointsTo_share (PosShare.mem_left_op_right fullShare)).1 $$ H17
    icases H17 with ⟨H17l, H17r⟩
    isplitl [H17l H17r H18]
    · isplitl [H17l]; · iexact H17l
      isplitl [H17r]; · iexact H17r
      iexact H18
    isplitr; · iempintro
    isplitl [HO]; · iapply (owesAt_intro m c 0); iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [show (pdats m 0 c).Φ (Fin.last _) = Pipeline.ΦA spec0 c from rfl, Pipeline.ownSems0_none]
    unfold Pipeline.ΦA
    iintro ⟨Hr, Hp⟩
    isplitl [Hp]; · iexact Hp
    isplitr; · iempintro
    iexact Hr
  hexit c := by
    rw [held_all, held_others_mid, Vmid_r17, Vmid_r18]
    rw [show ((pdats m 0 c).arrays ((pdats m 0 c).arrAt · (Pipeline.pin (pcfgs (F := F)) adm 0).N) : sProp 𝕄)
        = (dats m 0 c).arrays ((dats m 0 c).arrAt · cfg0.N) from rfl, arrays_three]
    rw [(dats m 0 c).arrAt_in 0 rfl cfg0.N, (dats m 0 c).arrAt_in 1 rfl cfg0.N]
    iintro ⟨⟨H17l, H17r, H18⟩, HO, Hp, Hrest⟩
    imodintro
    ihave H17 := (pointsTo_share (PosShare.mem_left_op_right fullShare)).2 $$ [H17l H17r]
    · isplitl [H17l]; · iexact H17l
      iexact H17r
    isplitl [H17 H18 Hrest]
    · isplitl [H17 H18]
      · isplitl [H17]; · iexact H17
        iexact H18
      iexact Hrest
    isplitl [Hp]; · iexact Hp
    iapply (owesAt_elim m c _); iexact HO

/-! ## The run -/

/-- @main as its three segments. -/
def segs : List (Pipeline.Seg (pcfgs (F := F)) adm (pdats m) () defs₀ Variants.none Lq lq) :=
  [.host (segA m), .region (segB m), .host (segC m)]

theorem main_eq (c : Dev nD) : main (F := F) c = Pipeline.Seg.run (segs m) :=
  main_segs adm (pdats m) () Variants.none Lq lq (segA m) (segC m) (segB m) rfl rfl c

/-- The staging cells are pairwise distinct. -/
theorem cells_inj : Function.Injective (Pipeline.cellOf (nD := nD) (τ := τ) (Pipeline.pin (pcfgs (F := F)) adm)) :=
  cellOf_inj

/-- What every final memory holds on core c: each unscoped buffer at the end-of-@main contents. -/
def QY (c : Dev nD) (s : MemSt nD τ sig (Elt F)) : Prop :=
  ∀ b ∈ Pipeline.ucRefs τ sig, s.mem (c, b) = Vend m c b

set_option backward.isDefEq.respectTransparency.types false in
/-- THE RUN, at any float instance: from any memory with zero counters every weakly fair execution of @main terminates,
    nothing faulting, and every unscoped buffer ends at the contents the three segments compute. -/
theorem run_main : θ_run defs (onTc (τ := τ) (main (F := F))) (s₀ m ρ) (fun r => ∀ c : Dev nD, QY m c r.2) :=
  Pipeline.θ_run_regions_kit (pcfgs (F := F)) adm (pdats m) () cells_inj emb₁ defs₀ Variants.none Lq lq m ρ main (segs m)
    (fun c Q => by rw [main_eq m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cells_inj) (Pipeline.launchToks (Pipeline.pin (pcfgs (F := F)) adm) cells_inj))
    (hu₀ := by
      iintro Hu; imodintro
      isplitl [Hu]
      · iapply (show (ownU _ : sProp 𝕄) ⊢ BI.own (emb₁ (initOf (Pipeline.cells (Pipeline.pin (pcfgs (F := F)) adm) cells_inj) (Pipeline.launchToks (Pipeline.pin (pcfgs (F := F)) adm) cells_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (Vin m c) ∗ Rr c))
    (Tₙ := fun c => iprop(StableHlo.held (c.tc : Thread nD τ) (Pipeline.ucRefs τ sig) (Vend m c) ∗ ∃ r, prngReg c r))
    (hch := by
      refine ⟨fun c => .rfl, fun c => .rfl, fun c => .rfl, fun c => ?_⟩
      show iprop(StableHlo.held (c.tc : Thread nD τ) (Pipeline.ucRefs τ sig) (StableHlo.after hostOps1 (Vmid m c)) ∗ Rr c)
        ⊢ iprop((StableHlo.held (c.tc : Thread nD τ) (Pipeline.ucRefs τ sig) (Vend m c) ∗ ∃ r, prngReg c r) ∗ ∃ W, owes (c.tc : Thread nD τ) (0 : CellTallies nD τ sig Unit) W)
      iintro ⟨Hh, Hp, HO⟩
      isplitr [HO]
      · isplitl [Hh]; · iexact Hh
        iexact Hp
      · iexact HO)
    (hinit := by
      refine Pipeline.initEach Lq lq fun c => ?_
      rw [show unscopedBufs c (fun b => m ((c.tc : Thread nD τ).loc b)) = StableHlo.held (c.tc : Thread nD τ) (Pipeline.ucRefs τ sig) (Vin m c) from
        Pipeline.unscopedBufs_held c (Vin m c)]
      iintro ⟨⟨Hh, -, HO, -, Hp, -⟩, -⟩
      imodintro
      isplitl [Hh]; · iexact Hh
      isplitl [Hp]; · iexists _; iexact Hp
      iexists ∅; iexact HO)
    (QY := QY m)
    (hfin := fun c s' => by
      unfold StableHlo.held
      iintro ⟨⟨Hh, -⟩, HSI⟩
      imodintro
      iapply (pointsTo_read_all (Pipeline.ucRefs τ sig) (fun b => (c, b)) (Vend m c) s')
      isplitl [Hh]; · iexact Hh
      iexact HSI)
    (hQ := fun s h c => h c)

end Cert.KernelIdeal.K

end
-- ==== Proof.KFrame.lean ====
/- The frame of the row-sum kernel's program, at any float instance: every host operation writes a buffer of its own, so
   the two argument arrays end as they were launched; and the result buffer ends at what the last host operations
   compute from the region's row sums. -/
import proofs.«127673_j48945447305730_2_alg».proof.Proof.KLaunch

set_option maxRecDepth 16384

noncomputable section

namespace Cert.KernelIdeal.K

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ) (ρ : Dev nD → PrngReg)

/-- No host operation before the region writes an argument array; -/
theorem V₀_arg0 (c : Dev nD) : V₀ m c (Proc.devRef .tc main_arg0) = m (c, Proc.devRef .tc main_arg0) := by
  dsimp only [V₀, hostOps0]
  after_results_simp <;> rfl
theorem V₀_arg1 (c : Dev nD) : V₀ m c (Proc.devRef .tc main_arg1) = m (c, Proc.devRef .tc main_arg1) := by
  dsimp only [V₀, hostOps0]
  after_results_simp <;> rfl

/-- nor does the region, nor any host operation after it. -/
theorem Vend_arg0 (c : Dev nD) : Vend m c (Proc.devRef .tc main_arg0) = m (c, Proc.devRef .tc main_arg0) := by
  unfold Vend
  dsimp only [hostOps1]
  after_results_simp
  rw [Vmid, Function.update_of_ne (by decide)]
  exact V₀_arg0 m c
theorem Vend_arg1 (c : Dev nD) : Vend m c (Proc.devRef .tc main_arg1) = m (c, Proc.devRef .tc main_arg1) := by
  unfold Vend
  dsimp only [hostOps1]
  after_results_simp
  rw [Vmid, Function.update_of_ne (by decide)]
  exact V₀_arg1 m c

/-- The run, read at the result and at the two arguments. -/
theorem run_result : θ_run defs (onTc (τ := τ) (main (F := F))) ⟨m, fun _ => 0, ρ⟩ (fun r => ∀ c : Dev nD,
      r.2.mem ((c.tc : Thread nD τ).loc main_v30) = Vend m c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c (Proc.devRef .tc main_v30) (by decide),
     (h c (Proc.devRef .tc main_arg0) (by decide)).trans (Vend_arg0 m c),
     (h c (Proc.devRef .tc main_arg1) (by decide)).trans (Vend_arg1 m c)⟩) (run_main m ρ)

/-- THE FRAME: the program runs to the end, nothing faulting, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.KernelIdeal.K

end
-- ==== Proof.Spec.lean ====
/- The two losses as functions of the two embedding arrays, over the extended reals.

   For an array x of 4096 rows of 256 entries, z x is x with every row divided by max(‖row‖, ε) (ε the f32 word of 1e-12).
   reps stacks z x0 on z x1 (8192 rows); sim r c is the inner product of rows r and c of reps; w k is the inner product of
   row k of z x0 with row k of z x1, so that sim k (k + 4096) = w k.
   `kernelLoss` is what the kernel's program computes: the mean over r of log (Σ_c exp (sim r c · 2) − exp (sim r r · 2)), minus 2.
   `refLoss` is what the reference computes: the mean over r of −(p r / ½ − log (Σ_c (1 − [r = c]) · exp (sim r c / ½))), with
   p r = sim r (r ± 4096) / w. The two agree when every entry is finite and every w k is nonzero (the module that proves it
   states the hypotheses exactly). -/
import Idealize.ShloMosaic.PureOps.Ideal

noncomputable section

namespace Cert.Loss

open Idealize.ShloMosaic

/-- An array of 4096 rows of 256 entries, and one of 8192 rows. -/
abbrev Emb := Fin 4096 → Fin 256 → EReal
abbrev Reps := Fin 8192 → Fin 256 → EReal

/-- The f32 words the two programs carry: 0, 1e-12 rounded, ½, 1, 2, 8192. -/
def c0 : EReal := Ideal.ofBits .f32 0x00000000#32
def cEps : EReal := Ideal.ofBits .f32 0x2B8CBCCC#32
def cHalf : EReal := Ideal.ofBits .f32 0x3F000000#32
def cOne : EReal := Ideal.ofBits .f32 0x3F800000#32
def cTwo : EReal := Ideal.ofBits .f32 0x40000000#32
def cN : EReal := Ideal.ofBits .f32 0x46000000#32

/-- The clamped norm of row k: max(√(Σ_d x k d · x k d), ε). -/
def nrm (x : Emb) (k : Fin 4096) : EReal := max (Ideal.sqrt (c0 + ∑ d : Fin 256, x k d * x k d)) cEps

/-- The normalised rows. -/
def z (x : Emb) : Emb := fun k d => Ideal.div (x k d) (nrm x k)

/-- The two normalised arrays stacked: rows 0 … 4095 from the first, 4096 … 8191 from the second. -/
def reps (x0 x1 : Emb) : Reps := fun r d =>
  if h : r.val < 4096 then z x0 ⟨r.val, h⟩ d else z x1 ⟨r.val - 4096, by have := r.isLt; omega⟩ d

/-- The similarity of rows r and c. -/
def sim (R : Reps) (r c : Fin 8192) : EReal := ∑ d : Fin 256, R r d * R c d

/-- The weight of pair k: the inner product of row k of the two normalised arrays. -/
def wgt (x0 x1 : Emb) (k : Fin 4096) : EReal := c0 + ∑ d : Fin 256, z x0 k d * z x1 k d

/-- The kernel's masked row denominator: the whole row sum of exponentials less the diagonal term, the diagonal computed
    from the row's own squares. -/
def kDen (R : Reps) (r : Fin 8192) : EReal :=
  (∑ c : Fin 8192, Ideal.exp (sim R r c * cTwo)) - Ideal.exp ((c0 + ∑ d : Fin 256, R r d * R r d) * cTwo)

/-- The kernel's loss. -/
def kernelLoss (x0 x1 : Emb) : EReal :=
  Ideal.div (c0 + ∑ r : Fin 8192, Ideal.log (kDen (reps x0 x1) r)) cN - cTwo

/-- The reference's positives: on the first half sim k (k + 4096) / w k, on the second sim (k + 4096) k / w k. -/
def pos (x0 x1 : Emb) (r : Fin 8192) : EReal :=
  if h : r.val < 4096 then
    Ideal.div (sim (reps x0 x1) r ⟨r.val + 4096, by omega⟩) (wgt x0 x1 ⟨r.val, h⟩)
  else
    Ideal.div (sim (reps x0 x1) r ⟨r.val - 4096, by have := r.isLt; omega⟩) (wgt x0 x1 ⟨r.val - 4096, by have := r.isLt; omega⟩)

/-- The reference's masked row denominator: Σ_c (1 − [r = c]) · exp (sim r c / ½). -/
def rDen (R : Reps) (r : Fin 8192) : EReal :=
  c0 + ∑ c : Fin 8192, (cOne - (if r = c then (1 : EReal) else 0)) * Ideal.exp (Ideal.div (sim R r c) cHalf)

/-- The reference's loss. -/
def refLoss (x0 x1 : Emb) : EReal :=
  Ideal.div (c0 + ∑ r : Fin 8192, -(Ideal.div (pos x0 x1 r) cHalf - Ideal.log (rDen (reps x0 x1) r))) cN

end Cert.Loss

end
-- ==== Proof.KPayload.lean ====
/- The arithmetic of one grid point of the row-sum kernel, read entry by entry over the extended reals, and the
   bookkeeping that turns eight partial row sums into one.

   At a point the body holds a block A of 1024 rows (256 entries each), a block B of 1024 rows of the whole stacked array,
   and the running column s of 1024 partial sums. It forms the 1024 × 1024 matrix A · Bᵀ (entry (p, c) is the inner
   product of row p of A with row c of B), doubles it, exponentiates it, sums each row over its 1024 columns, and adds
   that to s. So the new column at row p is  s p + Σ_c exp(2 · ⟨A p, B c⟩).  The first point of a row block starts
   from the zero column.

   The second half is pure arithmetic of sums: adding, block after block, the sums of a function over eight
   consecutive runs of 1024 indices gives its sum over all 8192 indices. Addition on the extended reals is
   commutative and associative, so nothing about finiteness is needed. -/
import proofs.«127673_j48945447305730_2_alg».proof.Proof.Gen.KernelIdeal.Skeleton
import proofs.«127673_j48945447305730_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen
open Idealize.ShloMosaic Idealize.ShloMosaic.ValueIdx

/-! ## Three non-pointwise operations read at an entry -/

/-- A vector of length a viewed as a column [a, 1]: entry (i, 0) of the column is entry i of the vector. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a 1024 × 1024 matrix along its rows: entry p of the result is the sum over the columns c of entry (p, c). -/
theorem laneSum_apply (src : FVec Ideal S1024x1024 .f32) (h : S1024x1024.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ c : Fin 1024, src (ix2 p c) := by
  refine (Ideal.multiReduction_add_single src 0x00000000#32 h hφ hacc (ix1 p)).trans ?_
  refine Finset.sum_congr rfl fun c _ => ?_
  exact congrArg src (funext fun a => Fin.ext (by match a with | ⟨0, _⟩ => rfl | ⟨1, _⟩ => rfl))

/-- The four coordinates of the two operand entries that output entry j and contraction position q of the product
    multiply: the left operand is read at (row of j, q), the right one at (column of j, q). -/
theorem lhs_coord0 (j : S1024x1024.Idx) (q : dot_S1024x256_S1024x256_S1024x1024_1_1_0_0_n_n.contr.Idx) :
    (dot_S1024x256_S1024x256_S1024x1024_1_1_0_0_n_n.lhsIdx j q 0).val = (j 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem lhs_coord1 (j : S1024x1024.Idx) (q : dot_S1024x256_S1024x256_S1024x1024_1_1_0_0_n_n.contr.Idx) :
    (dot_S1024x256_S1024x256_S1024x1024_1_1_0_0_n_n.lhsIdx j q 1).val = (q ⟨0, by decide⟩).val :=
  dot_S1024x256_S1024x256_S1024x1024_1_1_0_0_n_n.lhsIdx_val_of_single rfl j q
theorem rhs_coord0 (j : S1024x1024.Idx) (q : dot_S1024x256_S1024x256_S1024x1024_1_1_0_0_n_n.contr.Idx) :
    (dot_S1024x256_S1024x256_S1024x1024_1_1_0_0_n_n.rhsIdx j q 0).val = (j 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem rhs_coord1 (j : S1024x1024.Idx) (q : dot_S1024x256_S1024x256_S1024x1024_1_1_0_0_n_n.contr.Idx) :
    (dot_S1024x256_S1024x256_S1024x1024_1_1_0_0_n_n.rhsIdx j q 1).val = (q ⟨0, by decide⟩).val :=
  dot_S1024x256_S1024x256_S1024x1024_1_1_0_0_n_n.rhsIdx_val_of_single rfl j q

/-- The product of two 1024 × 256 blocks contracted along their rows' 256 entries, into the zero matrix:
    entry (p, c) is the inner product of row p of the left block with row c of the right block. -/
theorem matmul_rows_apply (l r : FVec Ideal S1024x256 .bf16) (p c : Fin 1024) :
    matmul (F := Ideal) dot_S1024x256_S1024x256_S1024x1024_1_1_0_0_n_n none l r
        (constant (F := Ideal) S1024x1024 .f32 0x00000000#32) (ix2 p c)
      = ∑ d : Fin 256, l (ix2 p d) * r (ix2 c d) := by
  refine (Ideal.matmul_constant_zero_apply dot_S1024x256_S1024x256_S1024x1024_1_1_0_0_n_n none l r (ix2 p c)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p c)
      ((contrEquiv1 dot_S1024x256_S1024x256_S1024x1024_1_1_0_0_n_n 256 rfl rfl).symm k) = ix2 p k :=
    funext fun a => Fin.ext (by
      match a with
      | ⟨0, _⟩ => exact lhs_coord0 _ _
      | ⟨1, _⟩ => exact (lhs_coord1 _ _).trans hk)
  have er : dot_S1024x256_S1024x256_S1024x1024_1_1_0_0_n_n.rhsIdx (ix2 p c)
      ((contrEquiv1 dot_S1024x256_S1024x256_S1024x1024_1_1_0_0_n_n 256 rfl rfl).symm k) = ix2 c k :=
    funext fun a => Fin.ext (by
      match a with
      | ⟨0, _⟩ => exact rhs_coord0 _ _
      | ⟨1, _⟩ => exact (rhs_coord1 _ _).trans hk)
  rw [el, er]

/-! ## The two stored values at an entry -/

/-- The value stored at the first point of a row block is the zero column. -/
theorem pay1_apply (y : S1024x1.Idx) : k0_pay1 (F := Ideal) y = 0 :=
  Ideal.ofBits_zero_f32

/-- The value stored at every point: at row p, the column read before plus the sum over the 1024 columns c of
    exp(2 · ⟨row p of the row block, row c of the other block⟩). -/
theorem pay2_apply (v6 v8 : Vec Ideal S1024x256 .bf16) (v14 : Vec Ideal S1024x1 .f32) (p : Fin 1024) :
    k0_pay2 (F := Ideal) v6 v8 v14 (ix2 p 0)
      = v14 (ix2 p 0) + ∑ c : Fin 1024, Ideal.exp ((∑ d : Fin 256, v8 (ix2 p d) * v6 (ix2 c d)) * Cert.Loss.cTwo) := by
  unfold k0_pay2
  dsimp only
  refine (addf_apply _ _ _).trans ?_
  refine congrArg₂ (· + ·) ?_ ?_
  · exact congrFun (shapeCast_self (s := S1024x1) v14 _) _
  · refine (shapeCast_a_a1_apply _ _ p 0).trans ?_
    refine (laneSum_apply _ _ _ _ p).trans ?_
    refine Finset.sum_congr rfl fun c _ => ?_
    refine congrArg Ideal.exp (congrArg₂ (· * ·) ?_ rfl)
    rw [shapeCast_self (s := S1024x256) v8, shapeCast_self (s := S1024x256) v6]
    exact matmul_rows_apply v8 v6 p c

/-! ## Eight block sums make the whole sum -/

/-- The sum of f over the j-th run of 1024 consecutive indices (zero past the end, which the uses never reach). -/
def blockSum (f : Fin 8192 → EReal) (j : ℕ) : EReal :=
  ∑ c : Fin 1024, if h : 1024 * j + c.val < 8192 then f ⟨1024 * j + c.val, h⟩ else 0

/-- The running total as the points of a row block build it: zero plus the first block's sum, then one block more
    at each step. -/
def acc (f : Fin 8192 → EReal) : ℕ → EReal
  | 0 => 0 + blockSum f 0
  | j + 1 => acc f j + blockSum f (j + 1)

theorem acc_zero (f : Fin 8192 → EReal) : acc f 0 = 0 + blockSum f 0 := rfl
theorem acc_succ (f : Fin 8192 → EReal) (j : ℕ) : acc f (j + 1) = acc f j + blockSum f (j + 1) := rfl

/-- Inside the range a block's sum is the sum over the pairs (block, offset) that the index 1024 · j + c names. -/
theorem blockSum_eq (f : Fin 8192 → EReal) (j : Fin 8) :
    blockSum f j.val = ∑ c : Fin 1024, f (finProdFinEquiv (m := 8) (n := 1024) (j, c)) := by
  unfold blockSum
  refine Finset.sum_congr rfl fun c _ => ?_
  have hj := j.isLt
  have hc := c.isLt
  rw [dif_pos (show 1024 * j.val + c.val < 8192 by omega)]
  exact congrArg f (Fin.ext (by
    show 1024 * j.val + c.val = c.val + 1024 * j.val
    omega))

/-- After the eighth block the running total is the sum over all 8192 indices. -/
theorem acc_seven (f : Fin 8192 → EReal) : acc f 7 = ∑ c' : Fin 8192, f c' := by
  rw [← Equiv.sum_comp (finProdFinEquiv (m := 8) (n := 1024)) f, Fintype.sum_prod_type, Fin.sum_univ_eight]
  simp only [acc, zero_add]
  rw [← blockSum_eq f 0, ← blockSum_eq f 1, ← blockSum_eq f 2, ← blockSum_eq f 3, ← blockSum_eq f 4,
    ← blockSum_eq f 5, ← blockSum_eq f 6, ← blockSum_eq f 7]
  rfl

end Cert.KernelIdeal.KValue

end
-- ==== Proof.KRegion.lean ====
/- The row-sum kernel's output array after the region, entry by entry over the extended reals.

   The grid is 8 × 8 and point t = 8·i + j holds row block i of the stacked array R (rows 1024·i … 1024·i + 1023) and
   multiplies it against rows 1024·j … 1024·j + 1023 of R. By the body's arithmetic the running column at local row p
   gains Σ_c exp(2·⟨R (1024·i + p), R (1024·j + c)⟩) at each point, starting from zero at j = 0; so after j = 7 it holds
   Σ_{c' < 8192} exp(2·⟨R (1024·i + p), R c'⟩). That column is written back to rows 1024·i … 1024·i + 1023 of the output,
   and the eight row blocks tile the output: row r of the output is written by the point 8·(r / 1024) + 7. -/
import proofs.«127673_j48945447305730_2_alg».proof.Proof.KBodyDefs
import proofs.«127673_j48945447305730_2_alg».proof.Proof.KPayload
import Idealize.ShloMosaic.Lib.Pipeline.Value

noncomputable section

namespace Cert.KernelIdeal.KValue

open Cert.KernelIdeal Cert.KernelIdeal.Gen Cert.KernelIdeal.K
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The stacked array as the region finds it, by row and entry. -/
def rows (c : Dev nD) : Cert.Loss.Reps := fun r d => (V (F := Ideal) m c main_v17 : S8192x256.Idx → EReal) (ix2 r d)

/-- Row r's full sum of exponentials of doubled similarities. -/
def rowVal (R : Cert.Loss.Reps) (r : Fin 8192) : EReal := ∑ c' : Fin 8192, Ideal.exp (Cert.Loss.sim R r c' * Cert.Loss.cTwo)

/-! ## The index maps, decided over the grid -/

theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ ((grid0.coords t) 1).val = t.val % 8 :=
  (by decide +kernel : ∀ t : Fin grid0.N, _)

/-! ## The blocks the body reads, as rows of the stacked array -/

/-- Window 0's block at point t is rows 1024·(t / 8) … of the stacked array. -/
theorem iblk0_apply (c : Dev nD) (t : Fin cfg0.N) (p : Fin 1024) (d : Fin 256) (r : Fin 8192)
    (hr : r.val = 1024 * (t.val / 8) + p.val) :
    (iblk (F := Ideal) m c 0 t : Vec Ideal S1024x256 .bf16) (ix2 p d) = rows m c r d := by
  obtain ⟨e0, e1, -, -, -, -, -⟩ := idx_facts t
  unfold iblk rows
  rw [View.read_apply]
  show V m c main_v17 _ = V m c main_v17 _
  refine congrArg (V m c main_v17) (funext fun a => Fin.ext ?_)
  match a with
  | ⟨0, _⟩ => show win0_0.index t (0 : Fin 2) * 1024 + 1 * p.val = r.val; rw [e0, hr]; omega
  | ⟨1, _⟩ => show win0_0.index t (1 : Fin 2) * 256 + 1 * d.val = d.val; rw [e1]; omega

/-- The rows the body cuts out of window 1's block (the whole array) at point t are rows 1024·(t % 8) … . -/
theorem rhsRows_apply (c : Dev nD) (t : Fin cfg0.N) (q : Fin 1024) (d : Fin 256) (r : Fin 8192)
    (hr : r.val = 1024 * (t.val % 8) + q.val) :
    rhsRows (F := Ideal) m c t (ix2 q d) = rows m c r d := by
  obtain ⟨-, -, e2, e3, -, -, e6⟩ := idx_facts t
  have ho := k0_off1_eq (grid0.coords t)
  unfold rhsRows iblk rows
  show (((cfg0.win 1).blk t).view.read (Elt Ideal) (V m c main_v17)) ((Rect.unit (s := S8192x256) (k0_off1 (grid0.coords t)) S1024x256.size (k0_off1_inb (grid0.coords t))).idx (ix2 q d)) = _
  rw [View.read_apply]
  show V m c main_v17 _ = V m c main_v17 _
  refine congrArg (V m c main_v17) (funext fun a => Fin.ext ?_)
  match a with
  | ⟨0, _⟩ =>
    show win0_1.index t (0 : Fin 2) * 8192 + 1 * (k0_off1 (grid0.coords t) 0 + 1 * q.val) = r.val
    rw [e2, ho, hr, ← e6]; show 0 * 8192 + 1 * (1024 * ((grid0.coords t) 1).val + 1 * q.val) = _; omega
  | ⟨1, _⟩ =>
    show win0_1.index t (1 : Fin 2) * 256 + 1 * (k0_off1 (grid0.coords t) 1 + 1 * d.val) = d.val
    rw [e3, ho]; show 0 * 256 + 1 * (0 + 1 * d.val) = _; omega

/-! ## The running column after each point -/

/-- What row r of the stacked array contributes at column index c': exp(2·⟨R r, R c'⟩). -/
def rowF (R : Cert.Loss.Reps) (r : Fin 8192) : Fin 8192 → EReal := fun c' => Ideal.exp (Cert.Loss.sim R r c' * Cert.Loss.cTwo)

/-- One point's lane sum is the sum of those contributions over the point's run of 1024 column indices: A is a block whose
    row p is row r of R, B a block whose rows are rows 1024·j … of R. -/
theorem point_sum (R : Cert.Loss.Reps) (A B : Vec Ideal S1024x256 .bf16) (r : Fin 8192) (p : Fin 1024) (j : ℕ) (hj : j < 8)
    (hA : ∀ d : Fin 256, A (ix2 p d) = R r d)
    (hB : ∀ (q : Fin 1024) (d : Fin 256), B (ix2 q d) = R ⟨1024 * j + q.val, by have := q.isLt; omega⟩ d) :
    ∑ c : Fin 1024, Ideal.exp ((∑ d : Fin 256, A (ix2 p d) * B (ix2 c d)) * Cert.Loss.cTwo) = blockSum (rowF R r) j := by
  unfold blockSum
  refine Finset.sum_congr rfl fun c _ => ?_
  have hc := c.isLt
  rw [dif_pos (show 1024 * j + c.val < 8192 by omega)]
  unfold rowF Cert.Loss.sim
  refine congrArg Ideal.exp (congrArg (· * Cert.Loss.cTwo) (Finset.sum_congr rfl fun d _ => ?_))
  rw [hA d, hB c d]

/-- The running column does not depend on how the point's number is written. -/
theorem outsAt_congr (c : Dev nD) (n n' : ℕ) (h : n = n') (hn : n < cfg0.N) (hn' : n' < cfg0.N) :
    outsAt (F := Ideal) m c n hn = outsAt (F := Ideal) m c n' hn' := by
  subst h; rfl

/-- After point 8·i + j the running column at local row p holds the contributions of row 1024·i + p over the first j + 1 runs
    of column indices. -/
theorem outsAt_inv (c : Dev nD) (i : ℕ) (hi : i < 8) (p : Fin 1024) (r : Fin 8192) (hr : r.val = 1024 * i + p.val) :
    ∀ (j : ℕ) (hj : j < 8) (hn : 8 * i + j < cfg0.N),
      outsAt (F := Ideal) m c (8 * i + j) hn (ix2 p 0) = acc (rowF (rows m c) r) j
  | 0, hj, hn => by
    have h0 : (⟨8 * i + 0, hn⟩ : Fin cfg0.N).val % 8 = 0 := by show (8 * i + 0) % 8 = 0; omega
    refine (congrFun (outsAt_first (F := Ideal) m c ⟨8 * i + 0, hn⟩ h0) (ix2 p 0)).trans ?_
    refine (pay2_apply (rhsRows (F := Ideal) m c ⟨8 * i + 0, hn⟩) (iblk (F := Ideal) m c 0 ⟨8 * i + 0, hn⟩) (k0_pay1 (F := Ideal)) p).trans ?_
    rw [pay1_apply, acc_zero]
    refine congrArg (0 + ·) ?_
    refine point_sum (rows m c) (iblk (F := Ideal) m c 0 ⟨8 * i + 0, hn⟩) (rhsRows (F := Ideal) m c ⟨8 * i + 0, hn⟩) r p 0 (by omega)
      (fun d => iblk0_apply m c ⟨8 * i + 0, hn⟩ p d r ?_) (fun q d => rhsRows_apply m c ⟨8 * i + 0, hn⟩ q d _ ?_)
    · show r.val = 1024 * ((8 * i + 0) / 8) + p.val; omega
    · show 1024 * 0 + q.val = 1024 * ((8 * i + 0) % 8) + q.val; omega
  | j + 1, hj, hn => by
    have h0 : ¬(⟨8 * i + (j + 1), hn⟩ : Fin cfg0.N).val % 8 = 0 := by show ¬(8 * i + (j + 1)) % 8 = 0; omega
    refine (congrFun (outsAt_next (F := Ideal) m c ⟨8 * i + (j + 1), hn⟩ h0) (ix2 p 0)).trans ?_
    refine (pay2_apply (rhsRows (F := Ideal) m c ⟨8 * i + (j + 1), hn⟩) (iblk (F := Ideal) m c 0 ⟨8 * i + (j + 1), hn⟩)
      (outsAt (F := Ideal) m c ((⟨8 * i + (j + 1), hn⟩ : Fin cfg0.N).val - 1) (Nat.lt_of_le_of_lt (Nat.sub_le _ _) hn)) p).trans ?_
    rw [acc_succ]
    refine congrArg₂ (· + ·) ?_ ?_
    · refine (congrFun (outsAt_congr m c _ (8 * i + j) (by show 8 * i + (j + 1) - 1 = 8 * i + j; omega) _ (by omega)) (ix2 p 0)).trans ?_
      exact outsAt_inv c i hi p r hr j (by omega) (by omega)
    · refine point_sum (rows m c) (iblk (F := Ideal) m c 0 ⟨8 * i + (j + 1), hn⟩) (rhsRows (F := Ideal) m c ⟨8 * i + (j + 1), hn⟩) r p (j + 1) hj
        (fun d => iblk0_apply m c ⟨8 * i + (j + 1), hn⟩ p d r ?_) (fun q d => rhsRows_apply m c ⟨8 * i + (j + 1), hn⟩ q d _ ?_)
      · show r.val = 1024 * ((8 * i + (j + 1)) / 8) + p.val; omega
      · show 1024 * (j + 1) + q.val = 1024 * ((8 * i + (j + 1)) % 8) + q.val; omega

/-! ## What is written back, and the whole output array -/

/-- A column of 1024 entries is known once it is known at every (p, 0). -/
theorem col_eq (X : Vec Ideal S1024x1 .f32) (g : Fin 1024 → EReal) (h : ∀ p : Fin 1024, X (ix2 p 0) = g p) (y : S1024x1.Idx) :
    X y = g (y 0) := by
  obtain ⟨p, u, rfl⟩ : ∃ (p : Fin 1024) (u : Fin 1), y = ix2 p u := ⟨y 0, y 1, eq_ix2 y⟩
  obtain rfl : u = 0 := Subsingleton.elim _ _
  exact h p

/-- The output array the region leaves: at row r, column 0, row r's full sum. -/
def outArr (c : Dev nD) : S8192x1.Idx → EReal := fun i => rowVal (rows m c) (i 0)

/-- The last point of row block i writes back rows 1024·i … 1024·i + 1023 of that array. -/
theorem flushed_eq (c : Dev nD) (t : Fin cfg0.N) (hf : (cfg0.win 2).flush t = true) :
    (dats (F := Ideal) m 0 c).flushed 2 t = ((cfg0.win 2).blk t).view.read (Elt Ideal) (outArr m c) := by
  have hN : cfg0.N = 64 := N_0
  have ht := t.isLt
  have h7 : t.val % 8 = 7 := (flush0_2 t).mp hf
  obtain ⟨-, -, -, -, e4, e5, -⟩ := idx_facts t
  show (cfg0.win 2).cut (grid0.coords t) ((dats (F := Ideal) m 0 c).after 2 t) = _
  rw [after0_2]
  funext y
  have hy0 : (y 0).val < 1024 := (y 0).isLt
  show outsAt (F := Ideal) m c t.val t.isLt y = outArr m c (((cfg0.win 2).blk t).view.emb y)
  refine (col_eq (outsAt (F := Ideal) m c t.val t.isLt)
    (fun p => rowVal (rows m c) ⟨1024 * (t.val / 8) + p.val, by have := p.isLt; omega⟩) (fun p => ?_) y).trans ?_
  · have hp := p.isLt
    refine (congrFun (outsAt_congr m c t.val (8 * (t.val / 8) + 7) (by omega) t.isLt (by omega)) (ix2 p 0)).trans ?_
    refine (outsAt_inv m c (t.val / 8) (by omega) p ⟨1024 * (t.val / 8) + p.val, by omega⟩ rfl 7 (by omega) (by omega)).trans ?_
    exact acc_seven _
  · unfold outArr
    refine congrArg (rowVal (rows m c)) (Fin.ext ?_)
    show 1024 * (t.val / 8) + (y 0).val = win0_2.index t (0 : Fin 2) * 1024 + 1 * (y 0).val
    rw [e4]; omega

/-- Every row of the output is in the block of the last point of its row block. -/
theorem cover (i : S8192x1.Idx) : ∃ t : Fin cfg0.N, (cfg0.win 2).flush t = true ∧ i ∈ ((cfg0.win 2).blk t).view.set := by
  have hN : cfg0.N = 64 := N_0
  have hi0 : (i 0).val < 8192 := (i 0).isLt
  have hi1 : (i 1).val < 1 := (i 1).isLt
  obtain ⟨t, ht⟩ : ∃ t : Fin cfg0.N, t.val = 8 * ((i 0).val / 1024) + 7 := ⟨⟨8 * ((i 0).val / 1024) + 7, by omega⟩, rfl⟩
  obtain ⟨-, -, -, -, e4, e5, -⟩ := idx_facts t
  refine ⟨t, (flush0_2 t).mpr (by omega), ?_⟩
  show i ∈ ((View.whole main_v18).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1 ≤ (i 1).val ∧ (i 1).val < win0_2.index t (1 : Fin 2) * 1 + 1
    rw [e5]; omega

/-- So the output array ends holding every row's full sum. -/
theorem final (c : Dev nD) : (dats (F := Ideal) m 0 c).arrAt 2 cfg0.N = outArr m c :=
  (dats (F := Ideal) m 0 c).arrAt_eq_of_cover 2 (outArr m c) (flushed_eq m c) cover

/-- The value of the kernel's region: row r of the output is Σ_{c'} exp(2 · sim r c') over all 8192 rows c' of the stacked array. -/
theorem region_value (c : Dev nD) (r : Fin 8192) :
    ((dats (F := Ideal) m 0 c).arrAt 2 cfg0.N : S8192x1.Idx → EReal) (ix2 r 0)
      = ∑ c' : Fin 8192, Ideal.exp (Cert.Loss.sim (fun r d => (V (F := Ideal) m c main_v17 : S8192x256.Idx → EReal) (ix2 r d)) r c' * Cert.Loss.cTwo) := by
  rw [final]; rfl

end Cert.KernelIdeal.KValue

end
-- ==== Proof.HostRows.lean ====
/- Reading the host's row operations at an index, over the extended reals.

   Three readings that every module about the host side needs: the sum of a row of a two-axis array, the sum of a
   one-axis array into a scalar, and the row normalisation x ↦ x / max(√Σ x², ε), whose entry (k, d) is the entry of
   the specification's `z` — the row's own entries divided by the row's clamped norm. -/
import proofs.«127673_j48945447305730_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.HostRows

open Idealize.ShloMosaic Idealize.ShloMosaic.ValueIdx

/-- The sum along axis 1 of an [n, d] array, started from a scalar: at row k it is the scalar plus the sum of the
    row's d entries. -/
theorem rowSum_apply {n d : Nat} (x : FVec Ideal ⟨2, ![n, d]⟩ .f32) (init : FVec Ideal ⟨0, ![]⟩ .f32)
    (h : (⟨2, ![n, d]⟩ : Shape).ReducesTo [1] ⟨1, ![n]⟩) (hr : (⟨2, ![n, d]⟩ : Shape).Reduces [1] ⟨1, ![n]⟩)
    (hu : 0 < (⟨0, ![]⟩ : Shape).numel) (k : Fin n) :
    Host.reduceAdd (F := Ideal) x init h hu (ix1 k) = init ix0 + ∑ e : Fin d, x (ix2 k e) := by
  rw [hostReduceAdd_apply, Ideal.hostReduceAdd_single h hr]
  refine congrArg₂ (· + ·) (congrArg init (funext fun a => a.elim0)) (Finset.sum_congr rfl fun e _ => ?_)
  exact congrArg x (funext fun a => Fin.ext (by match a with | ⟨0, _⟩ => rfl | ⟨1, _⟩ => rfl))

/-- The indices of a one-axis array of extent n are the numbers below n. -/
def idxEquiv1 {n : Nat} : Fin n ≃ (⟨1, ![n]⟩ : Shape).Idx where
  toFun := ix1
  invFun j := j 0
  left_inv _ := rfl
  right_inv j := (eq_ix1 j).symm

/-- The sum of a one-axis array into a scalar, started from a scalar: the scalar plus the sum of all n entries. -/
theorem totalSum_apply {n : Nat} (x : FVec Ideal ⟨1, ![n]⟩ .f32) (init : FVec Ideal ⟨0, ![]⟩ .f32)
    (h : (⟨1, ![n]⟩ : Shape).ReducesTo [0] ⟨0, ![]⟩) (hu : 0 < (⟨0, ![]⟩ : Shape).numel) (j : (⟨0, ![]⟩ : Shape).Idx) :
    Host.reduceAdd (F := Ideal) x init h hu j = init ix0 + ∑ r : Fin n, x (ix1 r) := by
  rw [hostReduceAdd_apply, Ideal.hostReduceAdd_total h (fun b => b.elim0)]
  refine congrArg₂ (· + ·) (congrArg init (funext fun a => a.elim0)) ?_
  exact (Equiv.sum_comp idxEquiv1 x).symm

/-- The host's square root, exponential and logarithm act entry by entry. -/
theorem hostSqrt_apply {s : Shape} {φ : FTy} (v : FVec Ideal s φ) (i : s.Idx) : Host.sqrt v i = Ideal.sqrt (v i) := rfl
theorem hostExp_apply {s : Shape} {φ : FTy} (v : FVec Ideal s φ) (i : s.Idx) : Host.exp v i = Ideal.exp (v i) := rfl
theorem hostLog_apply {s : Shape} {φ : FTy} (v : FVec Ideal s φ) (i : s.Idx) : Host.log v i = Ideal.log (v i) := rfl

/-- The row normalisation of a [4096, 256] array: entry (k, d) is x (k, d) divided by the clamped norm of row k,
    max(√(0 + Σ_e x (k, e)²), ε). The column of row sums is laid out as [4096, 1], compared with ε there, and spread
    back along the rows, so entry (k, d) of the divisor reads entry (k, 0) of the column, which reads row sum k. -/
theorem normRows_apply (x : FVec Ideal ⟨2, ![4096, 256]⟩ .f32)
    (hred : (⟨2, ![4096, 256]⟩ : Shape).ReducesTo [1] ⟨1, ![4096]⟩) (hu : 0 < (⟨0, ![]⟩ : Shape).numel)
    (hcol : (⟨1, ![4096]⟩ : Shape).BroadcastsInDim ⟨2, ![4096, 1]⟩ ![0])
    (heps : (⟨0, ![]⟩ : Shape).BroadcastsInDim ⟨2, ![4096, 1]⟩ ![])
    (hrow : (⟨2, ![4096, 1]⟩ : Shape).BroadcastsInDim ⟨2, ![4096, 256]⟩ ![0, 1])
    (k : Fin 4096) (d : Fin 256) :
    Host.divf (F := Ideal) x (broadcastInDim ⟨2, ![4096, 256]⟩ ![0, 1] hrow
      (maximumf (Host.sqrt (F := Ideal) (broadcastInDim ⟨2, ![4096, 1]⟩ ![0] hcol
          (Host.reduceAdd (F := Ideal) (mulf x x) (constant (F := Ideal) ⟨0, ![]⟩ .f32 0x00000000#32) hred hu)))
        (broadcastInDim ⟨2, ![4096, 1]⟩ ![] heps (constant (F := Ideal) ⟨0, ![]⟩ .f32 0x2B8CBCCC#32)))) (ix2 k d)
      = Cert.Loss.z (fun k e => x (ix2 k e)) k d := by
  rw [hostDivf_apply]
  unfold Cert.Loss.z Cert.Loss.nrm
  refine congrArg (Ideal.div (x (ix2 k d))) ?_
  rw [broadcastInDim_apply _ hrow _ (ix2 k d) (ix2 k (0 : Fin 1)) (fun a => match a with
    | ⟨0, _⟩ => by show k.val = if (4096 : Nat) = 1 then 0 else k.val; rw [if_neg (by decide)]
    | ⟨1, _⟩ => by show 0 = if (1 : Nat) = 1 then 0 else d.val; rw [if_pos rfl])]
  rw [maximumf_apply, hostSqrt_apply]
  refine congrArg₂ max (congrArg Ideal.sqrt ?_) ?_
  · rw [broadcastInDim_apply _ hcol _ (ix2 k (0 : Fin 1)) (ix1 k) (fun a => match a with
      | ⟨0, _⟩ => by show k.val = if (4096 : Nat) = 1 then 0 else k.val; rw [if_neg (by decide)])]
    rw [rowSum_apply _ _ hred (by decide) hu k]
    rfl
  · rw [broadcastInDim_scalar_apply]
    rfl

end Cert.HostRows

end
-- ==== Proof.LibConcatContraction.lean ====
/-
  A contraction over a concatenated axis.

  Lay two [M, d] arrays X, Y side by side along the columns, and two [d, N] arrays U, W one above the other along the
  rows. Contracting the [M, d + d] array against the [d + d, N] array over the long axis gives, at entry (a, b),

      ∑ k < d + d, [X | Y] (a, k) · [U ; W] (k, b)  =  ∑ k < d, X (a, k) · U (k, b)  +  ∑ k < d, Y (a, k) · W (k, b):

  the first d terms read the first pieces, the last d terms the second pieces. Only the commutative-monoid laws of the
  sum are used, so the identity holds over the extended reals with no finiteness assumption.
-/
import Idealize.ShloMosaic.Lib.Pipeline.Value
import Idealize.ShloMosaic.Lib.ValueIdx

noncomputable section

namespace Cert.Lib

open Idealize.ShloMosaic Idealize.ShloMosaic.ValueIdx

variable {α : Type}

/-- Two [M, d] arrays side by side along the columns: column `k < d` of the long array is the first array's column `k`. -/
theorem concat_cols_left {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = k.val) :
    concatenate ⟨2, ![M, D]⟩ 1 [⟨⟨2, ![M, d]⟩, X⟩, ⟨⟨2, ![M, d]⟩, Y⟩] h (ix2 a k') = X (ix2 a k) :=
  concatenate_pair_apply_left 1 X Y h (ix2 a k') rfl (ix2 a k) fun b => by
    match b with
    | ⟨0, _⟩ => rfl
    | ⟨1, _⟩ => exact hk.symm

/-- … and column `d + k` is the second array's column `k`. -/
theorem concat_cols_right {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = d + k.val) :
    concatenate ⟨2, ![M, D]⟩ 1 [⟨⟨2, ![M, d]⟩, X⟩, ⟨⟨2, ![M, d]⟩, Y⟩] h (ix2 a k') = Y (ix2 a k) :=
  concatenate_pair_apply_right 1 X Y h (ix2 a k') rfl rfl (ix2 a k)
    (fun b hb => by
      match b, hb with
      | ⟨0, _⟩, _ => rfl
      | ⟨1, _⟩, hb => exact absurd rfl hb)
    (by show k.val + d = k'.val; omega)

/-- Two [d, N] arrays one above the other along the rows: row `k < d` of the tall array is the first array's row `k`. -/
theorem concat_rows_left {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = k.val) :
    concatenate ⟨2, ![D, N]⟩ 0 [⟨⟨2, ![d, N]⟩, U⟩, ⟨⟨2, ![d, N]⟩, W⟩] h (ix2 k' b) = U (ix2 k b) :=
  concatenate_pair_apply_left 0 U W h (ix2 k' b) rfl (ix2 k b) fun ax => by
    match ax with
    | ⟨0, _⟩ => exact hk.symm
    | ⟨1, _⟩ => rfl

/-- … and row `d + k` is the second array's row `k`. -/
theorem concat_rows_right {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = d + k.val) :
    concatenate ⟨2, ![D, N]⟩ 0 [⟨⟨2, ![d, N]⟩, U⟩, ⟨⟨2, ![d, N]⟩, W⟩] h (ix2 k' b) = W (ix2 k b) :=
  concatenate_pair_apply_right 0 U W h (ix2 k' b) rfl rfl (ix2 k b)
    (fun ax hax => by
      match ax, hax with
      | ⟨0, _⟩, hax => exact absurd rfl hax
      | ⟨1, _⟩, _ => rfl)
    (by show k.val + d = k'.val; omega)

/-- The contraction of `[X | Y]` against `[U ; W]` over the long axis is the contraction of `X` against `U` plus that of
    `Y` against `W`, entry by entry, in any commutative additive monoid with a product. -/
theorem sum_concat_contraction {β : Type} [AddCommMonoid β] [Mul β] {M d D N : Nat} (hD : D = d + d)
    (X Y : (⟨2, ![M, d]⟩ : Shape).Idx → β) (U W : (⟨2, ![d, N]⟩ : Shape).Idx → β)
    (hx : Shape.Concatenates [⟨2, ![M, d]⟩, ⟨2, ![M, d]⟩] ⟨2, ![M, D]⟩ 1)
    (hw : Shape.Concatenates [⟨2, ![d, N]⟩, ⟨2, ![d, N]⟩] ⟨2, ![D, N]⟩ 0) (a : Fin M) (b : Fin N) :
    ∑ k : Fin D, concatenate ⟨2, ![M, D]⟩ 1 [⟨⟨2, ![M, d]⟩, X⟩, ⟨⟨2, ![M, d]⟩, Y⟩] hx (ix2 a k)
        * concatenate ⟨2, ![D, N]⟩ 0 [⟨⟨2, ![d, N]⟩, U⟩, ⟨⟨2, ![d, N]⟩, W⟩] hw (ix2 k b)
      = ∑ k : Fin d, X (ix2 a k) * U (ix2 k b) + ∑ k : Fin d, Y (ix2 a k) * W (ix2 k b) := by
  subst hD
  rw [Fin.sum_univ_add]
  congr 1
  · refine Finset.sum_congr rfl fun k _ => ?_
    rw [concat_cols_left X Y hx a k (Fin.castAdd d k) rfl, concat_rows_left U W hw b k (Fin.castAdd d k) rfl]
  · refine Finset.sum_congr rfl fun k _ => ?_
    rw [concat_cols_right X Y hx a k (Fin.natAdd d k) rfl, concat_rows_right U W hw b k (Fin.natAdd d k) rfl]

end Cert.Lib

end
-- ==== Proof.KHost.lean ====
/- The host side of the kernel's program, over the extended reals.

   Before the region the program normalises the rows of its two [4096, 256] arguments (each row divided by its clamped
   norm), stacks the two results into one [8192, 256] array and hands that to the region; a change of float format is
   the identity on extended reals. So the array the region finds is the specification's `reps` of the two arguments,
   entry by entry, and the two arguments themselves are untouched. -/
import proofs.«127673_j48945447305730_2_alg».proof.Proof.KBodyDefs
import proofs.«127673_j48945447305730_2_alg».proof.Proof.HostRows
import proofs.«127673_j48945447305730_2_alg».proof.Proof.LibConcatContraction

noncomputable section

namespace Cert.KernelIdeal.KHost

open Cert.KernelIdeal Cert.KernelIdeal.Gen Cert.KernelIdeal.K
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## Before the region -/

/-- The row normalisation, spelt as the program's ten operations on one argument. -/
def normRows (x : FVec Ideal S4096x256 .f32) : FVec Ideal S4096x256 .f32 :=
  Host.divf (F := Ideal) x (broadcastInDim S4096x256 ![0, 1] bcast_S4096x1_S4096x256_0_1
    (maximumf (Host.sqrt (F := Ideal) (broadcastInDim S4096x1 ![0] bcast_S4096_S4096x1_0
        (Host.reduceAdd (F := Ideal) (mulf x x) (constant (F := Ideal) S_ .f32 0x00000000#32) reducesTo_S4096x256_S4096_d1 h_S_)))
      (broadcastInDim S4096x1 ![] bcast_S_S4096x1 (constant (F := Ideal) S_ .f32 0x2B8CBCCC#32))))

/-- The array handed to the region is the stack of the two normalised arguments. -/
theorem v17_eq (c : Dev nD) :
    (V₀ (F := Ideal) m c (Proc.devRef .tc main_v17) : S8192x256.Idx → EReal)
      = truncf .bf16 (concatenate S8192x256 0
          [⟨S4096x256, normRows (m (c, Proc.devRef .tc main_arg0))⟩, ⟨S4096x256, normRows (m (c, Proc.devRef .tc main_arg1))⟩]
          concatenates_S4096x256_S4096x256_S8192x256_d0) bitsLt_bf16_f32 := by
  dsimp only [V₀, Gen.hostOps0]
  after_results
  rfl

/-- Entry (r, d) of the array handed to the region is entry (r, d) of `reps` of the two arguments: rows below 4096
    come from the first normalised argument, the others from the second. -/
theorem entry_reps (c : Dev nD) (r : Fin 8192) (d : Fin 256) :
    (V₀ (F := Ideal) m c (Proc.devRef .tc main_v17) : S8192x256.Idx → EReal) (ix2 r d)
      = Cert.Loss.reps (fun k e => (m (c, Proc.devRef .tc main_arg0) : S4096x256.Idx → EReal) (ix2 k e))
          (fun k e => (m (c, Proc.devRef .tc main_arg1) : S4096x256.Idx → EReal) (ix2 k e)) r d := by
  refine (congrFun (v17_eq m c) (ix2 r d)).trans ?_
  rw [truncf_apply]
  unfold Cert.Loss.reps
  by_cases h : r.val < 4096
  · rw [dif_pos h, Cert.Lib.concat_rows_left _ _ _ d ⟨r.val, h⟩ r rfl]
    exact Cert.HostRows.normRows_apply _ _ _ _ _ _ ⟨r.val, h⟩ d
  · have h' : r.val - 4096 < 4096 := by have := r.isLt; omega
    rw [dif_neg h, Cert.Lib.concat_rows_right _ _ _ d ⟨r.val - 4096, h'⟩ r (by show r.val = 4096 + (r.val - 4096); omega)]
    exact Cert.HostRows.normRows_apply _ _ _ _ _ _ ⟨r.val - 4096, h'⟩ d

/-- The operations before the region write neither argument. -/
theorem entry_arg0 (c : Dev nD) : V₀ (F := Ideal) m c (Proc.devRef .tc main_arg0) = m (c, Proc.devRef .tc main_arg0) := by
  dsimp only [V₀, Gen.hostOps0]
  after_results

theorem entry_arg1 (c : Dev nD) : V₀ (F := Ideal) m c (Proc.devRef .tc main_arg1) = m (c, Proc.devRef .tc main_arg1) := by
  dsimp only [V₀, Gen.hostOps0]
  after_results

/-! ## After the region -/

/-- What the seventeen operations after the region compute from the region's column `s` and the stacked array `v`:
    the mean over the rows of log (s r − exp (2 · Σ_d v r d²)), less 2. -/
def tailFn (s : FVec Ideal S8192x1 .f32) (v : FVec Ideal S8192x256 .bf16) : FVec Ideal S_ .f32 :=
  subf (Host.divf (F := Ideal)
      (Host.reduceAdd (F := Ideal)
        (Host.log (F := Ideal) (subf (shapeCast S8192 s shapeCasts_S8192x1_S8192)
          (Host.exp (F := Ideal) (mulf
            (Host.reduceAdd (F := Ideal) (mulf (extf .f32 v bitsLt_bf16_f32) (extf .f32 v bitsLt_bf16_f32))
              (constant (F := Ideal) S_ .f32 0x00000000#32) reducesTo_S8192x256_S8192_d1 h_S_)
            (broadcastInDim S8192 ![] bcast_S_S8192 (constant (F := Ideal) S_ .f32 0x40000000#32))))))
        (constant (F := Ideal) S_ .f32 0x00000000#32) reducesTo_S8192_S_d0 h_S_)
      (constant (F := Ideal) S_ .f32 0x46000000#32))
    (constant (F := Ideal) S_ .f32 0x40000000#32)

/-- The program's result is `tailFn` of the region's column and the stacked array, whatever the buffers hold when
    the region is left. -/
theorem tail_eq (W : Valuation τ sig (Elt Ideal)) :
    (StableHlo.after (Gen.hostOps1 (F := Ideal)) W (Proc.devRef .tc main_v30) : S_.Idx → EReal)
      = tailFn (W (Proc.devRef .tc main_v18)) (W (Proc.devRef .tc main_v17)) := by
  dsimp only [Gen.hostOps1]
  after_results
  rfl

/-- `tailFn` at its one index, with the stacked array read entry by entry: the column [8192, 1] is read at (r, 0),
    the row sum of squares at row r, and the last sum runs over all 8192 rows. -/
theorem tailFn_apply (s : FVec Ideal S8192x1 .f32) (v : FVec Ideal S8192x256 .bf16) (R : Fin 8192 → Fin 256 → EReal)
    (hR : ∀ r d, v (ix2 r d) = R r d) (j : S_.Idx) :
    tailFn s v j = Ideal.div (Cert.Loss.c0 + ∑ r : Fin 8192,
        Ideal.log (s (ix2 r 0) - Ideal.exp ((Cert.Loss.c0 + ∑ d : Fin 256, R r d * R r d) * Cert.Loss.cTwo))) Cert.Loss.cN
      - Cert.Loss.cTwo := by
  unfold tailFn
  rw [subf_apply, hostDivf_apply, Cert.HostRows.totalSum_apply _ _ reducesTo_S8192_S_d0 h_S_ j]
  refine congrArg₂ (· - ·) (congrArg₂ Ideal.div (congrArg₂ (· + ·) rfl (Finset.sum_congr rfl fun r _ => ?_)) rfl) rfl
  rw [Cert.HostRows.hostLog_apply, subf_apply, Cert.HostRows.hostExp_apply, mulf_apply,
    Cert.HostRows.rowSum_apply _ _ reducesTo_S8192x256_S8192_d1 (by decide) h_S_ r, broadcastInDim_scalar_apply]
  refine congrArg Ideal.log (congrArg₂ (· - ·) ?_ (congrArg Ideal.exp
    (congrArg₂ (· * ·) (congrArg₂ (· + ·) rfl (Finset.sum_congr rfl fun d _ => ?_)) rfl)))
  · exact shapeCast_apply s shapeCasts_S8192x1_S8192 (ix1 r) (ix2 r 0) (by
      rw [Shape.rowMajor_val_two, Shape.rowMajor_val_one]; show r.val * 1 + 0 = r.val; omega)
  · rw [mulf_apply, extf_apply, hR]

/-- The program's result from the buffers the region leaves: with the region's column `S` and the stacked array `R`,
    the mean over the rows of log (S r − exp (2 · Σ_d R r d²)), less 2. -/
theorem tail_value (W : Valuation τ sig (Elt Ideal)) (S : S8192x1.Idx → EReal)
    (hS : (W (Proc.devRef .tc main_v18) : S8192x1.Idx → EReal) = S) (R : Fin 8192 → Fin 256 → EReal)
    (hR : ∀ r d, (W (Proc.devRef .tc main_v17) : S8192x256.Idx → EReal) (ix2 r d) = R r d) :
    (StableHlo.after (Gen.hostOps1 (F := Ideal)) W (Proc.devRef .tc main_v30) : S_.Idx → EReal)
      = fun _ => Ideal.div (Cert.Loss.c0 + ∑ r : Fin 8192,
          Ideal.log (S (ix2 r 0) - Ideal.exp ((Cert.Loss.c0 + ∑ d : Fin 256, R r d * R r d) * Cert.Loss.cTwo))) Cert.Loss.cN
        - Cert.Loss.cTwo := by
  rw [tail_eq, hS]
  exact funext fun j => tailFn_apply S _ R hR j

/-- The operations after the region write neither argument. -/
theorem tail_arg0 (W : Valuation τ sig (Elt Ideal)) :
    StableHlo.after (Gen.hostOps1 (F := Ideal)) W (Proc.devRef .tc main_arg0) = W (Proc.devRef .tc main_arg0) := by
  dsimp only [Gen.hostOps1]
  after_results

theorem tail_arg1 (W : Valuation τ sig (Elt Ideal)) :
    StableHlo.after (Gen.hostOps1 (F := Ideal)) W (Proc.devRef .tc main_arg1) = W (Proc.devRef .tc main_arg1) := by
  dsimp only [Gen.hostOps1]
  after_results

end Cert.KernelIdeal.KHost

end
-- ==== Proof.PreDecode.lean ====
/- What the precondition says, entry by entry.

   The precondition is one truth value: the conjunction of "every |x0 entry| < +∞", "every |x1 entry| < +∞" and
   "every row weight is not zero", each a conjunction over all entries (a reduction by `and` from 1). It is 1 only if
   every conjunct is 1 at every entry. An extended real whose absolute value max(x, −x) is below +∞ is neither
   infinity; and the row weight the precondition computes — the sum over a row of the products of the two normalised
   arrays' entries — is the specification's `wgt`. -/
import proofs.«127673_j48945447305730_2_alg».proof.Proof.Gen.Pre_finite_inputs
import proofs.«127673_j48945447305730_2_alg».proof.Proof.HostRows
import Idealize.ShloMosaic.Lib.ReduceAll

noncomputable section

namespace Cert.PreDecode

open Cert.Pre_finite_inputs Cert.Pre_finite_inputs.Facts Idealize.ShloMosaic Idealize.ShloMosaic.ValueIdx

/-- The shape of a scalar has one index. -/
instance : Subsingleton S_.Idx := ⟨fun a b => funext fun d => d.elim0⟩

/-- The f32 word of +∞ is the top of the extended reals. -/
theorem top_eq : Ideal.ofBits .f32 0x7F800000#32 = ⊤ := by simp [Ideal.ofBits, Ideal.ieee]

theorem ofBool_eq_one {b : Bool} : BitVec.ofBool b = 1#1 ↔ b = true := by cases b <;> decide

/-- A comparison "less than" that came out 1 is the order's strict inequality. -/
theorem lt_of_cmp_olt {x y : EReal} (h : Ideal.cmp .olt x y = 1#1) : x < y := by
  simp only [Ideal.cmp, ofBool_eq_one, decide_eq_true_eq] at h
  exact h

/-- A comparison "not equal" that came out 1 is an inequality. -/
theorem ne_of_cmp_une {x y : EReal} (h : Ideal.cmp .une x y = 1#1) : x ≠ y := by
  simp only [Ideal.cmp, ofBool_eq_one, decide_eq_true_eq] at h
  exact h

/-- An extended real whose absolute value is below +∞ is neither infinity: at either infinity max(x, −x) is +∞. -/
theorem finite_of_abs_lt (x y : EReal) (hy : y = ⊤) (h : Ideal.cmp .olt (max x (-x)) y = 1#1) : x ≠ ⊤ ∧ x ≠ ⊥ := by
  subst hy
  have hlt := lt_of_cmp_olt h
  constructor
  · rintro rfl; simp at hlt
  · rintro rfl; simp at hlt

/-- The entry test "|a| < b", entry by entry. -/
theorem absLt_apply {s : Shape} (a b : FVec Ideal s .f32) (i : s.Idx) :
    cmpf .olt (Host.absf a) b i = Ideal.cmp .olt (max (a i) (-(a i))) (b i) := rfl

/-- The entry test "a ≠ b", entry by entry. -/
theorem une_apply {s : Shape} (a b : FVec Ideal s .f32) (i : s.Idx) :
    cmpf .une a b i = Ideal.cmp .une (a i) (b i) := rfl

variable [hFacts : Cert.Pre_finite_inputs.Facts]

/-- If the precondition holds of two arrays, every entry of both is a real number and every row weight is not zero. -/
theorem decode (a0 a1 : (⟨S4096x256, .f32⟩ : BufTy).Contents (Elt Ideal))
    (h : Cert.Pre_finite_inputs.fn (F := Ideal) a0 a1 = fun _ => 1#1) :
    (∀ k d, a0 (ix2 k d) ≠ ⊤ ∧ a0 (ix2 k d) ≠ ⊥) ∧ (∀ k d, a1 (ix2 k d) ≠ ⊤ ∧ a1 (ix2 k d) ≠ ⊥) ∧
      ∀ k, Cert.Loss.wgt (fun k d => a0 (ix2 k d)) (fun k d => a1 (ix2 k d)) k ≠ 0 := by
  have h0 := congrFun h ix0
  dsimp only [fn, fn_part1] at h0
  obtain ⟨h12, h3⟩ := IntOp.andi_eq_one.1 h0
  obtain ⟨h1, h2⟩ := IntOp.andi_eq_one.1 h12
  refine ⟨fun k d => ?_, fun k d => ?_, fun k => ?_⟩
  · have e := Host.reduce_andi_all _ _ _ _ _ h1 (ix2 k d)
    rw [absLt_apply] at e
    refine finite_of_abs_lt _ _ ?_ e
    rw [broadcastInDim_scalar_apply]
    exact top_eq
  · have e := Host.reduce_andi_all _ _ _ _ _ h2 (ix2 k d)
    rw [absLt_apply] at e
    refine finite_of_abs_lt _ _ ?_ e
    rw [broadcastInDim_scalar_apply]
    exact top_eq
  · have e := Host.reduce_andi_all _ _ _ _ _ h3 (ix1 k)
    rw [une_apply] at e
    refine fun hw => ne_of_cmp_une e (Eq.trans ?_ (hw.trans ?_))
    · rw [Cert.HostRows.rowSum_apply _ _ reducesTo_S4096x256_S4096_d1 (by decide) h_S_ k]
      unfold Cert.Loss.wgt
      refine congrArg₂ (· + ·) rfl (Finset.sum_congr rfl fun e _ => ?_)
      rw [mulf_apply]
      exact congrArg₂ (· * ·) (Cert.HostRows.normRows_apply a0 _ _ _ _ _ k e) (Cert.HostRows.normRows_apply a1 _ _ _ _ _ k e)
    · rw [broadcastInDim_scalar_apply, constant_apply, Ideal.ofBits_zero_f32]

end Cert.PreDecode

end
-- ==== Proof.LossEq.lean ====
/- The two losses of the specification agree on finite inputs with nonzero pair weights.

   Every quantity of the specification is an extended real; on finite inputs each one is (the image of) an ordinary real,
   and the argument is carried out there. Rows of finite entries have a real, strictly positive clamped norm, so the
   normalised rows are real; inner products of real rows are real; exponentials of reals are positive reals. For a fixed
   row r the masked sum Σ_c (1 − [r = c]) · e c equals (Σ_c e c) − e r, which is the sum over the other 8191 columns and
   therefore strictly positive, so both denominators are the same positive real and their logarithms are real. A pair's
   positive is w / w = 1 because w is a nonzero real. What is left is the identity
   (Σ_r L r) / n − 2 = (Σ_r −(2 − L r)) / n over the reals, with n the number of rows. -/
import proofs.«127673_j48945447305730_2_alg».proof.Proof.Spec
import Idealize.ShloMosaic.PureOps.Ideal

noncomputable section

namespace Cert.Loss

open Idealize.ShloMosaic

/-! ### The six constants as reals -/

theorem c0_eq : c0 = 0 := by simp [c0, Ideal.ofBits, Ideal.ieee]
theorem cOne_eq : cOne = ((1 : ℝ) : EReal) := by simp [cOne, Ideal.ofBits, Ideal.ieee, -EReal.coe_mul]; norm_num
theorem cTwo_eq : cTwo = ((2 : ℝ) : EReal) := by simp [cTwo, Ideal.ofBits, Ideal.ieee, -EReal.coe_mul]; norm_num
theorem cHalf_eq : cHalf = ((1 / 2 : ℝ) : EReal) := by simp [cHalf, Ideal.ofBits, Ideal.ieee, -EReal.coe_mul]; norm_num
theorem cN_eq : cN = ((8192 : ℝ) : EReal) := by simp [cN, Ideal.ofBits, Ideal.ieee, -EReal.coe_mul]; norm_num
/-- The clamp ε is some strictly positive real; its value plays no role. -/
theorem cEps_eq : ∃ e : ℝ, 0 < e ∧ cEps = (e : EReal) := by
  simp [cEps, Ideal.ofBits, Ideal.ieee, -EReal.coe_mul]

/-! ### Reals inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of (images of) reals is the image of the real sum. -/
theorem sum_of_coe {ι : Type*} [Fintype ι] (g : ι → EReal) (f : ι → ℝ) (h : ∀ i, g i = (f i : EReal)) :
    ∑ i, g i = ((∑ i, f i : ℝ) : EReal) := by
  rw [coe_sum]; exact Finset.sum_congr rfl (fun i _ => h i)

/-- The inclusion of the reals commutes with the maximum. -/
theorem coe_max (a b : ℝ) : max (a : EReal) (b : EReal) = ((max a b : ℝ) : EReal) :=
  (EReal.coe_strictMono.monotone.map_max).symm

/-! ### Two facts about finite real sums -/

/-- Masking out one index: Σ_c (1 − [r = c]) · e c = (Σ_c e c) − e r. -/
theorem masked_sum {ι : Type*} [Fintype ι] [DecidableEq ι] (E : ι → ℝ) (r : ι) :
    ∑ c, (1 - (if r = c then (1 : ℝ) else 0)) * E c = (∑ c, E c) - E r := by
  simp [sub_mul, Finset.sum_sub_distrib]

/-- With at least two indices and positive terms, the sum less one of its terms is positive. -/
theorem sum_sub_pos {ι : Type*} [Fintype ι] [DecidableEq ι] [Nontrivial ι] (E : ι → ℝ) (hE : ∀ c, 0 < E c) (r : ι) :
    0 < (∑ c, E c) - E r := by
  rw [← Finset.add_sum_erase Finset.univ E (Finset.mem_univ r), add_sub_cancel_left]
  obtain ⟨c, hc⟩ := exists_ne r
  exact Finset.sum_pos (fun i _ => hE i) ⟨c, Finset.mem_erase.mpr ⟨hc, Finset.mem_univ c⟩⟩

/-! ### Finiteness climbs through the definitions -/

/-- Every entry is a real number. -/
def Finite (x : Emb) : Prop := ∀ k d, x k d ≠ ⊤ ∧ x k d ≠ ⊥

/-- The clamped norm of a finite row is a strictly positive real. -/
theorem nrm_real (x : Emb) (hx : Finite x) (k : Fin 4096) : ∃ n : ℝ, 0 < n ∧ nrm x k = (n : EReal) := by
  obtain ⟨e, he, hE⟩ := cEps_eq
  have hs : ∑ d : Fin 256, x k d * x k d = ((∑ d : Fin 256, (x k d).toReal * (x k d).toReal : ℝ) : EReal) := by
    apply sum_of_coe
    intro d
    rw [EReal.coe_mul, EReal.coe_toReal (hx k d).1 (hx k d).2]
  refine ⟨max (Real.sqrt (∑ d : Fin 256, (x k d).toReal * (x k d).toReal)) e, lt_max_of_lt_right he, ?_⟩
  have hnn : ¬ (∑ d : Fin 256, (x k d).toReal * (x k d).toReal) < 0 :=
    not_lt.mpr (Finset.sum_nonneg (fun d _ => mul_self_nonneg _))
  rw [nrm, hs, c0_eq, zero_add, Ideal.sqrt_coe, if_neg hnn, hE, coe_max]

/-- The normalised rows of a finite array are real. -/
theorem z_real (x : Emb) (hx : Finite x) : ∃ zr : Fin 4096 → Fin 256 → ℝ, ∀ k d, z x k d = (zr k d : EReal) := by
  choose n hn hN using nrm_real x hx
  refine ⟨fun k d => (x k d).toReal * (1 / n k), fun k d => ?_⟩
  rw [z, hN k, Ideal.div_coe (hn k).ne', EReal.coe_mul, EReal.coe_toReal (hx k d).1 (hx k d).2]

/-- A row of the stack below 4096 is the row of the first normalised array with the same number. -/
theorem reps_lo (x0 x1 : Emb) (k : Fin 4096) (r : Fin 8192) (hr : r.val = k.val) (d : Fin 256) :
    reps x0 x1 r d = z x0 k d := by
  have h : r.val < 4096 := by have := k.isLt; omega
  have hk : k = ⟨r.val, h⟩ := Fin.ext hr.symm
  subst hk
  exact dif_pos h

/-- A row of the stack from 4096 on is the row of the second normalised array 4096 places lower. -/
theorem reps_hi (x0 x1 : Emb) (k : Fin 4096) (r : Fin 8192) (hr : r.val = k.val + 4096) (d : Fin 256) :
    reps x0 x1 r d = z x1 k d := by
  have h : ¬ r.val < 4096 := by omega
  have hb : r.val - 4096 < 4096 := by have := r.isLt; clear hr; omega
  have hk : k = ⟨r.val - 4096, hb⟩ := Fin.ext (by show k.val = r.val - 4096; omega)
  subst hk
  exact dif_neg h

/-- The stack of two finite arrays is real. -/
theorem reps_real (x0 x1 : Emb) (h0 : Finite x0) (h1 : Finite x1) :
    ∃ Rr : Fin 8192 → Fin 256 → ℝ, ∀ r d, reps x0 x1 r d = (Rr r d : EReal) := by
  obtain ⟨z0, hz0⟩ := z_real x0 h0
  obtain ⟨z1, hz1⟩ := z_real x1 h1
  refine ⟨fun r d => if h : r.val < 4096 then z0 ⟨r.val, h⟩ d
    else z1 ⟨r.val - 4096, by have := r.isLt; omega⟩ d, fun r d => ?_⟩
  beta_reduce
  by_cases h : r.val < 4096
  · rw [dif_pos h, reps_lo x0 x1 ⟨r.val, h⟩ r rfl]; exact hz0 _ _
  · rw [dif_neg h, reps_hi x0 x1 ⟨r.val - 4096, by have := r.isLt; omega⟩ r (by show r.val = r.val - 4096 + 4096; omega)]
    exact hz1 _ _

/-- Inner products of real rows are real. -/
theorem sim_real (R : Reps) (Rr : Fin 8192 → Fin 256 → ℝ) (hR : ∀ r d, R r d = (Rr r d : EReal)) (r c : Fin 8192) :
    sim R r c = ((∑ d : Fin 256, Rr r d * Rr c d : ℝ) : EReal) := by
  unfold sim
  apply sum_of_coe
  intro d
  rw [hR, hR, EReal.coe_mul]

/-! ### The two denominators -/

/-- On a real stack the two masked row denominators are one and the same strictly positive real. -/
theorem den_eq (R : Reps) (Rr : Fin 8192 → Fin 256 → ℝ) (hR : ∀ r d, R r d = (Rr r d : EReal)) (r : Fin 8192) :
    ∃ D : ℝ, 0 < D ∧ kDen R r = (D : EReal) ∧ rDen R r = (D : EReal) := by
  have hsim : ∀ c, sim R r c = ((∑ d : Fin 256, Rr r d * Rr c d : ℝ) : EReal) := fun c => sim_real R Rr hR r c
  generalize hs : (fun c : Fin 8192 => ∑ d : Fin 256, Rr r d * Rr c d) = s at hsim
  have hsim' : ∀ c, sim R r c = (s c : EReal) := by intro c; rw [hsim c, ← hs]
  have hdiag : c0 + ∑ d : Fin 256, R r d * R r d = (s r : EReal) := by
    rw [c0_eq, zero_add]; exact hsim' r
  refine ⟨(∑ c, Real.exp (s c * 2)) - Real.exp (s r * 2), sum_sub_pos _ (fun c => Real.exp_pos _) r, ?_, ?_⟩
  · unfold kDen
    rw [hdiag, cTwo_eq, ← EReal.coe_mul, Ideal.exp_coe, EReal.coe_sub]
    congr 1
    apply sum_of_coe
    intro c
    rw [hsim' c, ← EReal.coe_mul, Ideal.exp_coe]
  · unfold rDen
    rw [c0_eq, zero_add, ← masked_sum]
    apply sum_of_coe
    intro c
    have h2 : (1 / (1 / 2 : ℝ) : ℝ) = 2 := by norm_num
    have hm : ((1 : ℝ) : EReal) - (if r = c then (1 : EReal) else 0)
        = ((1 - (if r = c then (1 : ℝ) else 0) : ℝ) : EReal) := by
      by_cases h : r = c
      · rw [if_pos h, if_pos h, ← EReal.coe_one, ← EReal.coe_sub]
      · rw [if_neg h, if_neg h, ← EReal.coe_zero, ← EReal.coe_sub]
    rw [hsim' c, cHalf_eq, Ideal.div_coe (by norm_num), cOne_eq, hm, h2, ← EReal.coe_mul, Ideal.exp_coe,
      ← EReal.coe_mul]

/-! ### The positives -/

/-- With finite inputs and a nonzero pair weight, every positive is w / w = 1: on the first half the similarity of rows
    r and r + 4096 is the weight's own sum, on the second half the same sum with its factors exchanged. -/
theorem pos_eq_one (x0 x1 : Emb) (h0 : Finite x0) (h1 : Finite x1) (hw : ∀ k, wgt x0 x1 k ≠ 0) (r : Fin 8192) :
    pos x0 x1 r = 1 := by
  obtain ⟨z0, hz0⟩ := z_real x0 h0
  obtain ⟨z1, hz1⟩ := z_real x1 h1
  have hwr : ∀ k, wgt x0 x1 k = ((∑ d : Fin 256, z0 k d * z1 k d : ℝ) : EReal) := by
    intro k
    unfold wgt
    rw [c0_eq, zero_add]
    apply sum_of_coe
    intro d
    rw [hz0, hz1, EReal.coe_mul]
  have hdiv : ∀ k, Ideal.div (wgt x0 x1 k) (wgt x0 x1 k) = 1 := by
    intro k
    have hne : (∑ d : Fin 256, z0 k d * z1 k d : ℝ) ≠ 0 := by
      intro h
      apply hw k
      rw [hwr k, h, EReal.coe_zero]
    rw [hwr k, Ideal.div_coe hne, ← EReal.coe_mul, mul_one_div_cancel hne, EReal.coe_one]
  unfold pos
  by_cases h : r.val < 4096
  · rw [dif_pos h]
    have hsw : sim (reps x0 x1) r ⟨r.val + 4096, by omega⟩ = wgt x0 x1 ⟨r.val, h⟩ := by
      unfold sim wgt
      rw [c0_eq, zero_add]
      refine Finset.sum_congr rfl (fun d _ => ?_)
      rw [reps_lo x0 x1 ⟨r.val, h⟩ r rfl, reps_hi x0 x1 ⟨r.val, h⟩ ⟨r.val + 4096, by omega⟩ rfl]
    rw [hsw]
    exact hdiv _
  · rw [dif_neg h]
    have hb : r.val - 4096 < 4096 := by have := r.isLt; omega
    have hsw : sim (reps x0 x1) r ⟨r.val - 4096, by have := r.isLt; omega⟩ = wgt x0 x1 ⟨r.val - 4096, hb⟩ := by
      unfold sim wgt
      rw [c0_eq, zero_add]
      refine Finset.sum_congr rfl (fun d _ => ?_)
      rw [reps_hi x0 x1 ⟨r.val - 4096, hb⟩ r (by show r.val = r.val - 4096 + 4096; omega),
        reps_lo x0 x1 ⟨r.val - 4096, hb⟩ ⟨r.val - 4096, by have := r.isLt; omega⟩ rfl, mul_comm]
    rw [hsw]
    exact hdiv _

/-! ### The two losses -/

/-- The two means over the reals: (Σ_r L r) / n − 2 = (Σ_r −(2 − L r)) / n for n = 8192 rows. -/
theorem mean_shift (L : Fin 8192 → ℝ) :
    (∑ r, L r) * (1 / 8192 : ℝ) - 2 = (∑ r, -(1 * (1 / (1 / 2 : ℝ)) - L r)) * (1 / 8192 : ℝ) := by
  simp only [neg_sub, Finset.sum_sub_distrib, Finset.sum_const, Finset.card_univ, Fintype.card_fin, nsmul_eq_mul]
  ring

/-- On finite inputs whose pair weights are all nonzero the kernel's loss and the reference's loss are the same
    extended real (in fact the same real). -/
theorem loss_eq (x0 x1 : Emb) (h0 : Finite x0) (h1 : Finite x1) (hw : ∀ k, wgt x0 x1 k ≠ 0) :
    kernelLoss x0 x1 = refLoss x0 x1 := by
  obtain ⟨Rr, hR⟩ := reps_real x0 x1 h0 h1
  choose D hD hk hr using den_eq (reps x0 x1) Rr hR
  have hlogk : ∀ r, Ideal.log (kDen (reps x0 x1) r) = ((Real.log (D r) : ℝ) : EReal) := by
    intro r
    rw [hk r, Ideal.log_coe, if_neg (not_le.mpr (hD r))]
  have hterm : ∀ r, -(Ideal.div (pos x0 x1 r) cHalf - Ideal.log (rDen (reps x0 x1) r))
      = ((-(1 * (1 / (1 / 2 : ℝ)) - Real.log (D r)) : ℝ) : EReal) := by
    intro r
    rw [pos_eq_one x0 x1 h0 h1 hw r, cHalf_eq, Ideal.div_coe (by norm_num), hr r, Ideal.log_coe,
      if_neg (not_le.mpr (hD r)), ← EReal.coe_one, ← EReal.coe_mul, ← EReal.coe_sub, ← EReal.coe_neg]
  unfold kernelLoss refLoss
  rw [c0_eq, zero_add, zero_add, sum_of_coe _ _ hlogk, sum_of_coe _ _ hterm, cN_eq, Ideal.div_coe (by norm_num),
    Ideal.div_coe (by norm_num), cTwo_eq, ← EReal.coe_mul, ← EReal.coe_mul, ← EReal.coe_sub, mean_shift]

end Cert.Loss

end
-- ==== Proof.RefLoss.lean ====
/-
  The reference program's result, read stage by stage.

  Each stage of the reference is read at an index and identified with the corresponding function of the two
  embedding arrays: the normalised rows, the stacked array, the table of inner products, its two off-diagonals,
  the pair weights, the positives, the mask, the masked row sums, and finally the mean.
-/
import proofs.«127673_j48945447305730_2_alg».proof.Proof.Gen.ReferenceIdeal.Read
import proofs.«127673_j48945447305730_2_alg».proof.Proof.Spec
import proofs.«127673_j48945447305730_2_alg».proof.Proof.LibConcatContraction
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx Cert.Loss

/-- Two indices of a rank-one or rank-two shape are equal when their coordinates are. -/
macro "idx1_eq" : tactic => `(tactic| (funext a; match a with | ⟨0, _⟩ => rfl))
macro "idx2_eq" : tactic => `(tactic| (funext a; match a with | ⟨0, _⟩ => rfl | ⟨1, _⟩ => rfl))

/-- A 4096 × 256 array of extended reals, as the reference receives it. -/
abbrev Arr : Type := (⟨S4096x256, .f32⟩ : BufTy).Contents (Elt Ideal)

/-- The array as a table of rows. -/
abbrev emb (x : Arr) : Emb := fun k d => x (ix2 k d)

/-! ## The normalised rows -/

/-- The sum of squares of row k, with the reduction's initial value in front. -/
theorem v1_at (x : Arr) (k : Fin 4096) :
    val_main_v1 (F := Ideal) x (ix1 k) = c0 + ∑ d : Fin 256, x (ix2 k d) * x (ix2 k d) := by
  rw [val_main_v1_apply]
  refine congrArg₂ (· + ·) rfl (Finset.sum_congr rfl fun d _ => ?_)
  have h : idx_main_v1 (ix1 k) d = ix2 k d := by idx2_eq
  rw [h]
  rfl

/-- The clamped norm of row k. -/
theorem v5_at (x : Arr) (k : Fin 4096) (o : Fin 1) :
    val_main_v5 (F := Ideal) x (ix2 k o) = nrm (emb x) k := by
  rw [val_main_v5_apply, val_main_v3_apply, val_main_v2_apply, val_main_v4_apply]
  have h1 : idx_main_v2 (ix2 k o) = ix1 k := by idx1_eq
  rw [h1, v1_at]
  rfl

/-- Row k of the first array, normalised. -/
theorem v7_at (x : Arr) (k : Fin 4096) (d : Fin 256) :
    val_main_v7 (F := Ideal) x (ix2 k d) = z (emb x) k d := by
  rw [val_main_v7_apply, val_main_v6_apply]
  have h1 : idx_main_v6 (ix2 k d) = ix2 k (0 : Fin 1) := by idx2_eq
  rw [h1, v5_at]
  rfl

/-- The second array's chain is the same operations under other names. -/
theorem v9_at (x : Arr) (k : Fin 4096) :
    val_main_v9 (F := Ideal) x (ix1 k) = c0 + ∑ d : Fin 256, x (ix2 k d) * x (ix2 k d) := by
  rw [val_main_v9_apply]
  refine congrArg₂ (· + ·) rfl (Finset.sum_congr rfl fun d _ => ?_)
  have h : idx_main_v9 (ix1 k) d = ix2 k d := by idx2_eq
  rw [h]
  rfl

theorem v13_at (x : Arr) (k : Fin 4096) (o : Fin 1) :
    val_main_v13 (F := Ideal) x (ix2 k o) = nrm (emb x) k := by
  rw [val_main_v13_apply, val_main_v11_apply, val_main_v10_apply, val_main_v12_apply]
  have h1 : idx_main_v10 (ix2 k o) = ix1 k := by idx1_eq
  rw [h1, v9_at]
  rfl

/-- Row k of the second array, normalised. -/
theorem v15_at (x : Arr) (k : Fin 4096) (d : Fin 256) :
    val_main_v15 (F := Ideal) x (ix2 k d) = z (emb x) k d := by
  rw [val_main_v15_apply, val_main_v14_apply]
  have h1 : idx_main_v14 (ix2 k d) = ix2 k (0 : Fin 1) := by idx2_eq
  rw [h1, v13_at]
  rfl

/-! ## The stacked array and the table of inner products -/

/-- Row r of the stacked array: a row of the first normalised array when r < 4096, of the second otherwise. -/
theorem v16_at (x0 x1 : Arr) (r : Fin 8192) (d : Fin 256) :
    val_main_v16 (F := Ideal) x0 x1 (ix2 r d) = reps (emb x0) (emb x1) r d := by
  unfold val_main_v16 reps
  by_cases h : r.val < 4096
  · rw [dif_pos h]
    refine (Cert.Lib.concat_rows_left (val_main_v7 (F := Ideal) x0) (val_main_v15 (F := Ideal) x1)
      concatenates_S4096x256_S4096x256_S8192x256_d0 d ⟨r.val, h⟩ r rfl).trans ?_
    exact v7_at x0 ⟨r.val, h⟩ d
  · rw [dif_neg h]
    have hr : r.val - 4096 < 4096 := by have := r.isLt; omega
    refine (Cert.Lib.concat_rows_right (val_main_v7 (F := Ideal) x0) (val_main_v15 (F := Ideal) x1)
      concatenates_S4096x256_S4096x256_S8192x256_d0 d ⟨r.val - 4096, hr⟩ r (by show r.val = 4096 + (r.val - 4096); omega)).trans ?_
    exact v15_at x1 ⟨r.val - 4096, hr⟩ d

/-- Entry (r, c) of the product of the stacked array with its transpose: the inner product of rows r and c. -/
theorem v18_at (x0 x1 : Arr) (r c : Fin 8192) :
    val_main_v18 (F := Ideal) x0 x1 (ix2 r c) = sim (reps (emb x0) (emb x1)) r c := by
  rw [val_main_v18_apply]
  unfold sim
  refine Finset.sum_congr rfl fun d _ => ?_
  rw [val_main_v17_apply]
  have hl : lidx_main_v18 (ix2 r c) d = ix2 r d := by idx2_eq
  have hr : idx_main_v17 (ridx_main_v18 (ix2 r c) d) = ix2 c d := by idx2_eq
  rw [hl, hr, v16_at, v16_at]

/-! ## The pair weights -/

/-- The inner product of row k of the two normalised arrays, with the reduction's initial value in front. -/
theorem v22_at (x0 x1 : Arr) (k : Fin 4096) :
    val_main_v22 (F := Ideal) x0 x1 (ix1 k) = wgt (emb x0) (emb x1) k := by
  rw [val_main_v22_apply]
  unfold wgt
  refine congrArg₂ (· + ·) rfl (Finset.sum_congr rfl fun d _ => ?_)
  have h : idx_main_v22 (ix1 k) d = ix2 k d := by idx2_eq
  rw [h, val_main_v21_apply, v7_at, v15_at]
  rfl

/-! ## The two off-diagonals -/

/-- A 32-bit word holding a number below 2³¹ reads, signed, as that number. -/
theorem toInt_ofNat_small (n : Nat) (h : n < 2147483648) : (BitVec.ofNat 32 n).toInt = (n : Int) := by
  rw [BitVec.toInt_eq_toNat_of_lt (by rw [BitVec.toNat_ofNat]; omega), BitVec.toNat_ofNat]
  omega

/-- … so it is not below zero. -/
theorem slt_zero_small (n : Nat) (h : n < 2147483648) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_small n h]
    simp
  rw [this]
  rfl

/-- A gather that collapses both axes of a square table and takes a two-component start index reads the table at that
    start index, each component read signed and clamped into the table's extent. -/
theorem gather_pair_apply {α : Type} (x : S8192x8192.Idx → α) (idx : IVec S4096x2 32) (k : Fin 4096) (r c : Fin 8192)
    (hr : min (idx (ix2 k 0)).toInt.toNat 8191 = r.val) (hc : min (idx (ix2 k 1)).toInt.toNat 8191 = c.val) :
    Host.gather gather_S8192x8192_S4096x2_S4096_n_01_n_n_01_1_11 x idx (ix1 k) = x (ix2 r c) := by
  unfold Host.gather
  refine congrArg x ?_
  funext a
  refine Fin.ext ?_
  match a with
  | ⟨0, _⟩ =>
    show gather_S8192x8192_S4096x2_S4096_n_01_n_n_01_1_11.start (ix1 k) idx 0
      + gather_S8192x8192_S4096x2_S4096_n_01_n_n_01_1_11.batchCoord (ix1 k) 0
      + gather_S8192x8192_S4096x2_S4096_n_01_n_n_01_1_11.offCoord (ix1 k) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 k)
        ⟨List.idxOf (0 : Fin 2) gather_S8192x8192_S4096x2_S4096_n_01_n_n_01_1_11.startIndexMap,
          List.idxOf_lt_length_iff.2 (by decide)⟩ = ix2 k 0 := by
      funext b; refine Fin.ext ?_
      match b with
      | ⟨0, _⟩ => rfl
      | ⟨1, _⟩ => rfl
    rw [hsi]
    exact hr
  | ⟨1, _⟩ =>
    show gather_S8192x8192_S4096x2_S4096_n_01_n_n_01_1_11.start (ix1 k) idx 1
      + gather_S8192x8192_S4096x2_S4096_n_01_n_n_01_1_11.batchCoord (ix1 k) 1
      + gather_S8192x8192_S4096x2_S4096_n_01_n_n_01_1_11.offCoord (ix1 k) 1 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 k)
        ⟨List.idxOf (1 : Fin 2) gather_S8192x8192_S4096x2_S4096_n_01_n_n_01_1_11.startIndexMap,
          List.idxOf_lt_length_iff.2 (by decide)⟩ = ix2 k 1 := by
      funext b; refine Fin.ext ?_
      match b with
      | ⟨0, _⟩ => rfl
      | ⟨1, _⟩ => rfl
    rw [hsi]
    exact hc

/-- Start indices of the upper off-diagonal: row k … -/
theorem call0_row (k : Fin 4096) : val_main_call0_v16 (F := Ideal) (ix2 k 0) = BitVec.ofNat 32 k.val := by
  unfold val_main_call0_v16
  refine (Cert.Lib.concat_cols_left (val_main_call0_v14 (F := Ideal)) (val_main_call0_v15 (F := Ideal))
    concatenates_S4096x1_S4096x1_S4096x2_d1 k (0 : Fin 1) (0 : Fin 2) rfl).trans ?_
  rw [val_main_call0_v14_apply]
  have h : idx_main_call0_v14 (ix2 k (0 : Fin 1)) = ix1 k := by idx1_eq
  rw [h, val_main_call0_v8_apply, val_main_call0_v5_apply, val_main_call0_v4_apply]
  have h0 : val_main_call0_v0 (F := Ideal) (ix1 k) = BitVec.ofNat 32 k.val := rfl
  have hc : val_main_call0_c_0 (F := Ideal) (idx_main_call0_v4 (ix1 k)) = 0#32 := rfl
  rw [h0, hc, slt_zero_small k.val (by have := k.isLt; omega), select_zero]

/-- … and column k + 4096. -/
theorem call0_col (k : Fin 4096) : val_main_call0_v16 (F := Ideal) (ix2 k 1) = BitVec.ofNat 32 (4096 + k.val) := by
  unfold val_main_call0_v16
  refine (Cert.Lib.concat_cols_right (val_main_call0_v14 (F := Ideal)) (val_main_call0_v15 (F := Ideal))
    concatenates_S4096x1_S4096x1_S4096x2_d1 k (0 : Fin 1) (1 : Fin 2) rfl).trans ?_
  rw [val_main_call0_v15_apply]
  have h : idx_main_call0_v15 (ix2 k (0 : Fin 1)) = ix1 k := by idx1_eq
  rw [h, val_main_call0_v13_apply, val_main_call0_v10_apply, val_main_call0_v9_apply]
  have h3 : val_main_call0_v3 (F := Ideal) (ix1 k) = BitVec.ofNat 32 (4096 + k.val) := by
    rw [val_main_call0_v3_apply, val_main_call0_v2_apply]
    exact (BitVec.ofNat_add 4096 k.val).symm
  have hc : val_main_call0_c_2 (F := Ideal) (idx_main_call0_v9 (ix1 k)) = 0#32 := rfl
  rw [h3, hc, slt_zero_small (4096 + k.val) (by have := k.isLt; omega), select_zero]

/-- The upper off-diagonal: entry k is the inner product of rows k and k + 4096. -/
theorem v19_at (x0 x1 : Arr) (k : Fin 4096) :
    val_main_v19 (F := Ideal) x0 x1 (ix1 k)
      = sim (reps (emb x0) (emb x1)) ⟨k.val, by have := k.isLt; omega⟩ ⟨k.val + 4096, by have := k.isLt; omega⟩ := by
  unfold val_main_v19
  have hk := k.isLt
  refine (gather_pair_apply (val_main_v18 (F := Ideal) x0 x1) (val_main_call0_v16 (F := Ideal)) k
    ⟨k.val, by omega⟩ ⟨k.val + 4096, by omega⟩ ?_ ?_).trans (v18_at x0 x1 _ _)
  · rw [call0_row, toInt_ofNat_small k.val (by omega)]
    show min (Int.toNat (k.val : Int)) 8191 = k.val
    rw [Int.toNat_natCast]; omega
  · rw [call0_col, toInt_ofNat_small (4096 + k.val) (by omega)]
    show min (Int.toNat ((4096 + k.val : Nat) : Int)) 8191 = k.val + 4096
    rw [Int.toNat_natCast]; omega

/-- Start indices of the lower off-diagonal: row k + 4096 … -/
theorem call1_row (k : Fin 4096) : val_main_call1_v16 (F := Ideal) (ix2 k 0) = BitVec.ofNat 32 (4096 + k.val) := by
  unfold val_main_call1_v16
  refine (Cert.Lib.concat_cols_left (val_main_call1_v14 (F := Ideal)) (val_main_call1_v15 (F := Ideal))
    concatenates_S4096x1_S4096x1_S4096x2_d1 k (0 : Fin 1) (0 : Fin 2) rfl).trans ?_
  rw [val_main_call1_v14_apply]
  have h : idx_main_call1_v14 (ix2 k (0 : Fin 1)) = ix1 k := by idx1_eq
  rw [h, val_main_call1_v8_apply, val_main_call1_v5_apply, val_main_call1_v4_apply]
  have h3 : val_main_call1_v3 (F := Ideal) (ix1 k) = BitVec.ofNat 32 (4096 + k.val) := by
    rw [val_main_call1_v3_apply, val_main_call1_v2_apply]
    exact (BitVec.ofNat_add 4096 k.val).symm
  have hc : val_main_call1_c_0 (F := Ideal) (idx_main_call1_v4 (ix1 k)) = 0#32 := rfl
  rw [h3, hc, slt_zero_small (4096 + k.val) (by have := k.isLt; omega), select_zero]

/-- … and column k. -/
theorem call1_col (k : Fin 4096) : val_main_call1_v16 (F := Ideal) (ix2 k 1) = BitVec.ofNat 32 k.val := by
  unfold val_main_call1_v16
  refine (Cert.Lib.concat_cols_right (val_main_call1_v14 (F := Ideal)) (val_main_call1_v15 (F := Ideal))
    concatenates_S4096x1_S4096x1_S4096x2_d1 k (0 : Fin 1) (1 : Fin 2) rfl).trans ?_
  rw [val_main_call1_v15_apply]
  have h : idx_main_call1_v15 (ix2 k (0 : Fin 1)) = ix1 k := by idx1_eq
  rw [h, val_main_call1_v13_apply, val_main_call1_v10_apply, val_main_call1_v9_apply]
  have h0 : val_main_call1_v0 (F := Ideal) (ix1 k) = BitVec.ofNat 32 k.val := rfl
  have hc : val_main_call1_c_2 (F := Ideal) (idx_main_call1_v9 (ix1 k)) = 0#32 := rfl
  rw [h0, hc, slt_zero_small k.val (by have := k.isLt; omega), select_zero]

/-- The lower off-diagonal: entry k is the inner product of rows k + 4096 and k. -/
theorem v20_at (x0 x1 : Arr) (k : Fin 4096) :
    val_main_v20 (F := Ideal) x0 x1 (ix1 k)
      = sim (reps (emb x0) (emb x1)) ⟨k.val + 4096, by have := k.isLt; omega⟩ ⟨k.val, by have := k.isLt; omega⟩ := by
  unfold val_main_v20
  have hk := k.isLt
  refine (gather_pair_apply (val_main_v18 (F := Ideal) x0 x1) (val_main_call1_v16 (F := Ideal)) k
    ⟨k.val + 4096, by omega⟩ ⟨k.val, by omega⟩ ?_ ?_).trans (v18_at x0 x1 _ _)
  · rw [call1_row, toInt_ofNat_small (4096 + k.val) (by omega)]
    show min (Int.toNat ((4096 + k.val : Nat) : Int)) 8191 = k.val + 4096
    rw [Int.toNat_natCast]; omega
  · rw [call1_col, toInt_ofNat_small k.val (by omega)]
    show min (Int.toNat (k.val : Int)) 8191 = k.val
    rw [Int.toNat_natCast]; omega

/-! ## The positives -/

/-- Two arrays of 4096 entries one after the other: entry r < 4096 of the long array is the first array's entry r … -/
theorem concat_vec_left {α : Type} (U W : S4096.Idx → α) (k : Fin 4096) (r : Fin 8192) (hk : r.val = k.val) :
    concatenate S8192 0 [⟨S4096, U⟩, ⟨S4096, W⟩] concatenates_S4096_S4096_S8192_d0 (ix1 r) = U (ix1 k) :=
  concatenate_pair_apply_left 0 U W concatenates_S4096_S4096_S8192_d0 (ix1 r) rfl (ix1 k) fun ax => by
    match ax with
    | ⟨0, _⟩ => exact hk.symm

/-- … and entry 4096 + k is the second array's entry k. -/
theorem concat_vec_right {α : Type} (U W : S4096.Idx → α) (k : Fin 4096) (r : Fin 8192) (hk : r.val = 4096 + k.val) :
    concatenate S8192 0 [⟨S4096, U⟩, ⟨S4096, W⟩] concatenates_S4096_S4096_S8192_d0 (ix1 r) = W (ix1 k) :=
  concatenate_pair_apply_right 0 U W concatenates_S4096_S4096_S8192_d0 (ix1 r) rfl rfl (ix1 k)
    (fun ax hax => by
      match ax, hax with
      | ⟨0, _⟩, hax => exact absurd rfl hax)
    (by show k.val + 4096 = r.val; omega)

/-- Entry r of the positives. -/
theorem v25_at (x0 x1 : Arr) (r : Fin 8192) :
    val_main_v25 (F := Ideal) x0 x1 (ix1 r) = pos (emb x0) (emb x1) r := by
  unfold val_main_v25 pos
  by_cases h : r.val < 4096
  · rw [dif_pos h]
    refine (concat_vec_left (val_main_v23 (F := Ideal) x0 x1) (val_main_v24 (F := Ideal) x0 x1) ⟨r.val, h⟩ r rfl).trans ?_
    rw [val_main_v23_apply, v19_at, v22_at]
    rfl
  · rw [dif_neg h]
    have hr : r.val - 4096 < 4096 := by have := r.isLt; omega
    refine (concat_vec_right (val_main_v23 (F := Ideal) x0 x1) (val_main_v24 (F := Ideal) x0 x1) ⟨r.val - 4096, hr⟩ r
      (by show r.val = 4096 + (r.val - 4096); omega)).trans ?_
    rw [val_main_v24_apply, v20_at, v22_at]
    have e : (⟨(⟨r.val - 4096, hr⟩ : Fin 4096).val + 4096, by show r.val - 4096 + 4096 < 8192; have := r.isLt; omega⟩ : Fin 8192) = r :=
      Fin.ext (by show r.val - 4096 + 4096 = r.val; omega)
    rw [e]
    rfl

/-! ## The mask -/

/-- The comparison of the row number with the column number: the one-bit word 1 on the diagonal, 0 off it. -/
theorem v32_at (r c : Fin 8192) : val_main_v32 (F := Ideal) (ix2 r c) = if r = c then 1#1 else 0#1 := by
  rw [val_main_v32_apply, val_main_v31_apply, val_main_v30_apply]
  have h28 : val_main_v28 (F := Ideal) (ix2 r c) = BitVec.ofNat 32 r.val := rfl
  have h29 : val_main_v29 (F := Ideal) (ix2 r c) = BitVec.ofNat 32 c.val := rfl
  have hc : val_main_c (F := Ideal) (idx_main_v30 (ix2 r c)) = 0#32 := rfl
  rw [h28, h29, hc]
  have h0 : IntOp.addi (BitVec.ofNat 32 r.val) 0#32 = BitVec.ofNat 32 r.val := BitVec.add_zero _
  rw [h0]
  show BitVec.ofBool (BitVec.ofNat 32 r.val == BitVec.ofNat 32 c.val) = _
  by_cases h : r = c
  · subst h
    rw [if_pos rfl, beq_self_eq_true]
    rfl
  · rw [if_neg h]
    have hne : (BitVec.ofNat 32 r.val == BitVec.ofNat 32 c.val) = false := by
      rw [beq_eq_false_iff_ne]
      intro e
      have e' := congrArg BitVec.toNat e
      rw [BitVec.toNat_ofNat, BitVec.toNat_ofNat] at e'
      exact h (Fin.ext (by have := r.isLt; have := c.isLt; omega))
    rw [hne]
    rfl

/-- One minus the indicator of the diagonal. -/
theorem v35_at (r c : Fin 8192) :
    val_main_v35 (F := Ideal) (ix2 r c) = cOne - (if r = c then (1 : EReal) else 0) := by
  rw [val_main_v35_apply, val_main_v34_apply, val_main_v33_apply, v32_at]
  by_cases h : r = c
  · rw [if_pos h, if_pos h]
    show cOne - (((1#1 : BitVec 1).toNat : ℝ) : EReal) = cOne - 1
    have h1 : (1#1 : BitVec 1).toNat = 1 := rfl
    rw [h1, Nat.cast_one, EReal.coe_one]
  · rw [if_neg h, if_neg h]
    show cOne - (((0#1 : BitVec 1).toNat : ℝ) : EReal) = cOne - 0
    have h1 : (0#1 : BitVec 1).toNat = 0 := rfl
    rw [h1, Nat.cast_zero, EReal.coe_zero]

/-! ## The masked row sums -/

theorem v40_at (x0 x1 : Arr) (r : Fin 8192) :
    val_main_v40 (F := Ideal) x0 x1 (ix1 r) = rDen (reps (emb x0) (emb x1)) r := by
  rw [val_main_v40_apply]
  unfold rDen
  refine congrArg₂ (· + ·) rfl (Finset.sum_congr rfl fun c _ => ?_)
  have h : idx_main_v40 (ix1 r) c = ix2 r c := by idx2_eq
  rw [h, val_main_v39_apply, v35_at, val_main_v38_apply, val_main_v37_apply, v18_at, val_main_v36_apply]
  rfl

/-! ## The mean -/

/-- A sum over the indices of a one-axis shape is the sum over the axis. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

/-- The reference's result is the reference loss of the two arrays. -/
theorem ref_value (x0 x1 : (⟨Cert.ReferenceIdeal.S4096x256, .f32⟩ : BufTy).Contents (Elt Ideal)) :
    Cert.ReferenceIdeal.Read.val_main_v45 (F := Ideal) x0 x1
      = fun _ => Cert.Loss.refLoss (fun k d => x0 (ValueIdx.ix2 k d)) (fun k d => x1 (ValueIdx.ix2 k d)) := by
  funext i
  rw [val_main_v45_apply, val_main_v44_apply, sum_idx1]
  unfold refLoss
  refine congrArg₂ Ideal.div (congrArg₂ (· + ·) rfl (Finset.sum_congr rfl fun r _ => ?_)) rfl
  rw [val_main_v43_apply, val_main_v42_apply, val_main_v27_apply, v25_at, val_main_v41_apply, v40_at, val_main_v26_apply]
  rfl

end Cert.RefValue

end
-- ==== Proof.Bridge.lean ====
/- The two idealized programs end at one extended real.

   The kernel's program: the rows of the stacked array when the region is entered are the normalised inputs stacked
   (the host operations before the region); the region leaves in row r of its output the sum over all 8192 columns c of
   exp(2 · sim r c) (eight blocks of 1024 columns accumulated over the inner grid axis); the host operations after the
   region subtract the diagonal term, take logarithms, average and subtract 2: the kernel's loss of Spec.lean.
   The reference's run ends at the reference's loss. Under the precondition every input entry is finite and every row
   weight is nonzero, and then the two losses are equal. -/
import proofs.«127673_j48945447305730_2_alg».proof.Defs
import proofs.«127673_j48945447305730_2_alg».proof.Proof.KFrame
import proofs.«127673_j48945447305730_2_alg».proof.Proof.KRegion
import proofs.«127673_j48945447305730_2_alg».proof.Proof.KHost
import proofs.«127673_j48945447305730_2_alg».proof.Proof.PreDecode
import proofs.«127673_j48945447305730_2_alg».proof.Proof.LossEq
import proofs.«127673_j48945447305730_2_alg».proof.Proof.RefLoss

set_option maxRecDepth 16384

noncomputable section

namespace Cert.Bridge

open Cert.KernelIdeal Cert.KernelIdeal.Gen Cert.KernelIdeal.K
open Idealize.ShloMosaic Idealize.ShloMosaic.TcCoe Idealize.ShloMosaic.ValueIdx
open Idealize.SL Idealize.SL.Sem

variable (m : (ℓ : Loc nD τ sig) → Buf (Elt Ideal) ℓ)

/-- An argument array as rows and columns. -/
abbrev rowsOf (a : S4096x256.Idx → EReal) : Cert.Loss.Emb := fun k d => a (ix2 k d)

/-- The stacked array the region reads is the two normalised inputs stacked. -/
theorem rows_eq (c : Dev nD) :
    Cert.KernelIdeal.KValue.rows m c
      = Cert.Loss.reps (rowsOf (m (c, Proc.devRef .tc main_arg0))) (rowsOf (m (c, Proc.devRef .tc main_arg1))) :=
  funext fun r => funext fun d => Cert.KernelIdeal.KHost.entry_reps m c r d

/-- The kernel program's result is the kernel's loss of the two argument arrays. -/
theorem kernel_value (c : Dev nD) :
    (Vend (F := Ideal) m c (Proc.devRef .tc main_v30) : S_.Idx → EReal)
      = fun _ => Cert.Loss.kernelLoss (rowsOf (m (c, Proc.devRef .tc main_arg0))) (rowsOf (m (c, Proc.devRef .tc main_arg1))) := by
  unfold Vend
  rw [Cert.KernelIdeal.KHost.tail_value (Vmid m c) (Cert.KernelIdeal.KValue.outArr m c)
    ((Vmid_r18 m c).trans (Cert.KernelIdeal.KValue.final m c))
    (Cert.Loss.reps (rowsOf (m (c, Proc.devRef .tc main_arg0))) (rowsOf (m (c, Proc.devRef .tc main_arg1))))
    (fun r d => by rw [Vmid_r17]; exact Cert.KernelIdeal.KHost.entry_reps m c r d)]
  funext _
  unfold Cert.Loss.kernelLoss Cert.Loss.kDen
  simp only [Cert.KernelIdeal.KValue.outArr, Cert.KernelIdeal.KValue.rowVal, rows_eq]

end Cert.Bridge

namespace Cert.Proof

open Idealize.ShloMosaic Idealize.SL.Sem

/-- Under finite inputs with every row weight nonzero, both idealized programs end at the same extended real: the
    kernel's loss and the reference's loss of the (agreeing) argument arrays. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.K.Vend (F := Ideal) m c (Proc.devRef .tc Cert.KernelIdeal.main_v30), Cert.KernelIdeal.K.run_result m ρ, ?_⟩
  refine (θ_run Cert.ReferenceIdeal.defs _ _).mono (fun r h c => ⟨(h c).1.trans ?_, (h c).2⟩)
    (Cert.ReferenceIdeal.Value.run (F := Ideal) m' ρ')
  obtain ⟨h0, h1, hw⟩ := Cert.PreDecode.decode _ _ (hpre c)
  rw [Cert.ReferenceIdeal.Read.val_main_v45_eq, Cert.RefValue.ref_value, (hagree c).1, (hagree c).2]
  refine Eq.trans ?_ (Cert.Bridge.kernel_value m c).symm
  funext _
  exact (Cert.Loss.loss_eq _ _ h0 h1 hw).symm

end Cert.Proof

end
-- ==== Proof.lean ====
/- The claim is the conjunction of five statements about a row-sum kernel for a contrastive loss and its jnp reference.

   The mathematics. Write z(x) for the rows of x divided by max(‖row‖, ε), reps for z(emb_i) stacked on z(emb_j)
   (8192 rows of 256), sim r c = Σ_d reps r d · reps c d, and w k = Σ_d z(emb_i) k d · z(emb_j) k d.
   The kernel computes  (Σ_r log (Σ_c exp (2 · sim r c) − exp (2 · sim r r))) / 8192 − 2 ;
   the reference computes  (Σ_r −(p r / ½ − log (Σ_c (1 − [r = c]) · exp (sim r c / ½)))) / 8192  with
   p r = sim k (k + 4096) / w k  and  sim (k + 4096) k / w k  on the two halves. Since sim k (k + 4096) = w k, the
   quotient p r is 1 exactly when w k is a nonzero real, and then the two results are one real number
   (every term is finite: the rows of reps are finite, so sim, its exponentials, the masked sums and their
   logarithms are reals, and the laws used — cancelling the diagonal term, moving the constant 2 out of the sum —
   hold among reals). Where w k = 0 the reference's quotient is 0 / 0, which the extended reals read as −∞, and the
   two results differ (at the all-zero input: +∞ against log 8191 − 2); the precondition therefore carries, beside the
   finiteness of the inputs, that every w k is nonzero.

   The three frames: the kernel's program, at the word level and idealized, is run as host operations, one kernel region
   and host operations, the region's two input windows holding one array in two halves (one proof for any float
   instance, stated twice); the reference is host operations only. The ideal pass rewrote nothing, so the idealization
   conjunct is trivial. The equality of the results is the bridge module's. -/
import proofs.«127673_j48945447305730_2_alg».proof.Defs
import proofs.«127673_j48945447305730_2_alg».proof.Proof.Gen.Kernel
import proofs.«127673_j48945447305730_2_alg».proof.Proof.Gen.Kernel.Skeleton
import proofs.«127673_j48945447305730_2_alg».proof.Proof.Gen.Kernel.Launch
import proofs.«127673_j48945447305730_2_alg».proof.Proof.Gen.Kernel.Points
import proofs.«127673_j48945447305730_2_alg».proof.Proof.Gen.KernelIdeal
import proofs.«127673_j48945447305730_2_alg».proof.Proof.Gen.KernelIdeal.Skeleton
import proofs.«127673_j48945447305730_2_alg».proof.Proof.Gen.KernelIdeal.Launch
import proofs.«127673_j48945447305730_2_alg».proof.Proof.Gen.KernelIdeal.Points
import proofs.«127673_j48945447305730_2_alg».proof.Proof.Gen.ReferenceIdeal
import proofs.«127673_j48945447305730_2_alg».proof.Proof.Gen.Pre_finite_inputs
import proofs.«127673_j48945447305730_2_alg».proof.Proof.Gen.ReferenceIdeal.Run
import proofs.«127673_j48945447305730_2_alg».proof.Proof.WFrame
import proofs.«127673_j48945447305730_2_alg».proof.Proof.Bridge
import Idealize.ShloMosaic.Adequacy
import Idealize.ShloMosaic.Init

noncomputable section

namespace Cert.Proof

open Idealize.ShloMosaic Idealize.SL.Sem Cert.Kernel

/-- The reference is host operations only: its generated run ends with the arguments unchanged. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The word-level kernel's program runs to the end and leaves both argument arrays as they were. -/
theorem frame_p [Cert.Kernel.Facts] [Cert.Pre_finite_inputs.Facts] : Cert.frame_Kernel :=
  fun m ρ _ => Cert.Kernel.K.frame m ρ

/-- So does the idealized one. -/
theorem frame_pi [Cert.KernelIdeal.Facts] [Cert.Pre_finite_inputs.Facts] : Cert.frame_KernelIdeal :=
  fun m ρ _ => Cert.KernelIdeal.K.frame m ρ

theorem claim : Cert.Claim :=
  ⟨Cert.Kernel.Gen.facts, Cert.KernelIdeal.Gen.facts, Cert.ReferenceIdeal.Gen.facts, Cert.Pre_finite_inputs.Gen.facts,
    @frame_p Cert.Kernel.Gen.facts Cert.Pre_finite_inputs.Gen.facts,
    @frame_pi Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
